-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v25_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3 : Shape := ⟨2, ![20000, 3]⟩
abbrev S320000x32 : Shape := ⟨2, ![320000, 32]⟩
abbrev S320000 : Shape := ⟨1, ![320000]⟩
abbrev S128x512 : Shape := ⟨2, ![128, 512]⟩
abbrev S512 : Shape := ⟨1, ![512]⟩
abbrev S32x512 : Shape := ⟨2, ![32, 512]⟩
abbrev S3x512 : Shape := ⟨2, ![3, 512]⟩
abbrev S512x512 : Shape := ⟨2, ![512, 512]⟩
abbrev S512x128 : Shape := ⟨2, ![512, 128]⟩
abbrev S128 : Shape := ⟨1, ![128]⟩
abbrev S512x32 : Shape := ⟨2, ![512, 32]⟩
abbrev S32 : Shape := ⟨1, ![32]⟩
abbrev S512x3 : Shape := ⟨2, ![512, 3]⟩
abbrev S3 : Shape := ⟨1, ![3]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S320000x32 : S_.BroadcastsInDim S320000x32 (![] : Fin 0 → Fin S320000x32.rank)
  reducesTo_S320000x32_S_d0_1 : S320000x32.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S3x512 : S_.BroadcastsInDim S3x512 (![] : Fin 0 → Fin S3x512.rank)
  reducesTo_S3x512_S_d0_1 : S3x512.ReducesTo [0, 1] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S512x3 : S_.BroadcastsInDim S512x3 (![] : Fin 0 → Fin S512x3.rank)
  reducesTo_S512x3_S_d0_1 : S512x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg16 : FVec F S32 .f32) (main_arg17 : FVec F S512x3 .f32) (main_arg18 : FVec F S3 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S512x3 .f32 := Host.absf main_arg17
  let main_cst_28 : FVec F S_ .f32 := constant S_ .f32 0x7F800000#32
  let main_v75 : FVec F S512x3 .f32 := broadcastInDim S512x3 ![] bcast_S_S512x3 main_cst_28
  let main_v76 : IVec S512x3 1 := cmpf .olt main_v74 main_v75
  let main_c_29 : IVec S_ 1 := constantI S_ 1 1#1
  let main_v77 : IVec S_ 1 := (fun x v => Host.reduce IntOp.andi x v reducesTo_S512x3_S_d0_1 h_S_) main_v76 main_c_29
  let main_v78 : IVec S_ 1 := andi main_v73 main_v77
  let main_v79 : FVec F S3 .f32 := Host.absf main_arg18
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg13 : FVec F S512x128 .f32) (main_arg14 : FVec F S128 .f32) (main_arg15 : FVec F S512x32 .f32) (main_arg16 : FVec F S32 .f32) (main_arg17 : FVec F S512x3 .f32) (main_arg18 : FVec F S3 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x128 .f32 := Host.absf main_arg13
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S512x32 .f32 := Host.absf main_arg15
  let main_cst_24 : FVec F S_ .f32 := constant S_ .f32 0x7F800000#32
  let main_v65 : FVec F S512x32 .f32 := broadcastInDim S512x32 ![] bcast_S_S512x32 main_cst_24
  let main_v66 : IVec S512x32 1 := cmpf .olt main_v64 main_v65
  let main_c_25 : IVec S_ 1 := constantI S_ 1 1#1
  let main_v67 : IVec S_ 1 := (fun x v => Host.reduce IntOp.andi x v reducesTo_S512x32_S_d0_1 h_S_) main_v66 main_c_25
  fn_part4 (F := F) main_arg16 main_arg17 main_arg18 main_v63 main_v67

def fn_part2 {F : FTy → Type} [FloatOps F] (main_arg9 : FVec F S3x512 .f32) (main_arg10 : FVec F S512 .f32) (main_arg11 : FVec F S512x512 .f32) (main_arg12 : FVec F S512 .f32) (main_arg13 : FVec F S512x128 .f32) (main_arg14 : FVec F S128 .f32) (main_arg15 : FVec F S512x32 .f32) (main_arg16 : FVec F S32 .f32) (main_arg17 : FVec F S512x3 .f32) (main_arg18 : FVec F S3 .f32) (main_v33 : IVec S_ 1) : IVec S_ 1 :=
  let main_v34 : FVec F S3x512 .f32 := Host.absf main_arg9
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg11
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_arg15 main_arg16 main_arg17 main_arg18 main_v48 main_v49 main_v50

def fn_part1 {F : FTy → Type} [FloatOps F] (main_arg6 : FVec F S512 .f32) (main_arg7 : FVec F S32x512 .f32) (main_arg8 : FVec F S512 .f32) (main_arg9 : FVec F S3x512 .f32) (main_arg10 : FVec F S512 .f32) (main_arg11 : FVec F S512x512 .f32) (main_arg12 : FVec F S512 .f32) (main_arg13 : FVec F S512x128 .f32) (main_arg14 : FVec F S128 .f32) (main_arg15 : FVec F S512x32 .f32) (main_arg16 : FVec F S32 .f32) (main_arg17 : FVec F S512x3 .f32) (main_arg18 : FVec F S3 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S32x512 .f32 := Host.absf main_arg7
  let main_cst_8 : FVec F S_ .f32 := constant S_ .f32 0x7F800000#32
  let main_v25 : FVec F S32x512 .f32 := broadcastInDim S32x512 ![] bcast_S_S32x512 main_cst_8
  let main_v26 : IVec S32x512 1 := cmpf .olt main_v24 main_v25
  let main_c_9 : IVec S_ 1 := constantI S_ 1 1#1
  let main_v27 : IVec S_ 1 := (fun x v => Host.reduce IntOp.andi x v reducesTo_S32x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S20000x128 .f32) (main_arg1 : FVec F S20000x3 .f32) (main_arg2 : FVec F S320000x32 .f32) (main_arg3 : IVec S320000 32) (main_arg4 : IVec S320000 32) (main_arg5 : FVec F S128x512 .f32) (main_arg6 : FVec F S512 .f32) (main_arg7 : FVec F S32x512 .f32) (main_arg8 : FVec F S512 .f32) (main_arg9 : FVec F S3x512 .f32) (main_arg10 : FVec F S512 .f32) (main_arg11 : FVec F S512x512 .f32) (main_arg12 : FVec F S512 .f32) (main_arg13 : FVec F S512x128 .f32) (main_arg14 : FVec F S128 .f32) (main_arg15 : FVec F S512x32 .f32) (main_arg16 : FVec F S32 .f32) (main_arg17 : FVec F S512x3 .f32) (main_arg18 : FVec F S3 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S320000x32 .f32 := Host.absf main_arg2
  let main_cst_2 : FVec F S_ .f32 := constant S_ .f32 0x7F800000#32
  let main_v10 : FVec F S320000x32 .f32 := broadcastInDim S320000x32 ![] bcast_S_S320000x32 main_cst_2
  let main_v11 : IVec S320000x32 1 := cmpf .olt main_v9 main_v10
  let main_c_3 : IVec S_ 1 := constantI S_ 1 1#1
  let main_v12 : IVec S_ 1 := (fun x v => Host.reduce IntOp.andi x v reducesTo_S320000x32_S_d0_1 h_S_) main_v11 main_c_3
  let main_v13 : IVec S_ 1 := andi main_v8 main_v12
  let main_v14 : FVec F S128x512 .f32 := Host.absf main_arg5
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S20000x128 : Shape := ⟨2, ![20000, 128]⟩
abbrev S20000x3 : Shape := ⟨2, ![20000, 3]⟩
abbrev S320000x32 : Shape := ⟨2, ![320000, 32]⟩
abbrev S320000 : Shape := ⟨1, ![320000]⟩
abbrev S128x512 : Shape := ⟨2, ![128, 512]⟩
abbrev S512 : Shape := ⟨1, ![512]⟩
abbrev S32x512 : Shape := ⟨2, ![32, 512]⟩
abbrev S3x512 : Shape := ⟨2, ![3, 512]⟩
abbrev S512x512 : Shape := ⟨2, ![512, 512]⟩
abbrev S512x128 : Shape := ⟨2, ![512, 128]⟩
abbrev S128 : Shape := ⟨1, ![128]⟩
abbrev S512x32 : Shape := ⟨2, ![512, 32]⟩
abbrev S32 : Shape := ⟨1, ![32]⟩
abbrev S512x3 : Shape := ⟨2, ![512, 3]⟩
abbrev S3 : Shape := ⟨1, ![3]⟩
abbrev S_ : Shape := ⟨0, ![]⟩
abbrev S320000x1 : Shape := ⟨2, ![320000, 1]⟩
abbrev S320000x128 : Shape := ⟨2, ![320000, 128]⟩
abbrev S320000x3 : Shape := ⟨2, ![320000, 3]⟩
abbrev S1x512 : Shape := ⟨2, ![1, 512]⟩
abbrev S1x32 : Shape := ⟨2, ![1, 32]⟩
abbrev S320000x512 : Shape := ⟨2, ![320000, 512]⟩
abbrev S2000x32 : Shape := ⟨2, ![2000, 32]⟩
abbrev S2000x128 : Shape := ⟨2, ![2000, 128]⟩
abbrev S2000x3 : Shape := ⟨2, ![2000, 3]⟩
abbrev S2000x512 : Shape := ⟨2, ![2000, 512]⟩
abbrev S20000x512 : Shape := ⟨2, ![20000, 512]⟩
abbrev S1x128 : Shape := ⟨2, ![1, 128]⟩
abbrev S1x3 : Shape := ⟨2, ![1, 3]⟩

abbrev nBuf : Space → Nat
  | .hbm => 62
  | .vmem => 38
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S320000x32, .f32⟩
  | .hbm, ⟨3, _⟩ => ⟨S320000, .i32⟩
  | .hbm, ⟨4, _⟩ => ⟨S320000, .i32⟩
  | .hbm, ⟨5, _⟩ => ⟨S128x512, .f32⟩
  | .hbm, ⟨6, _⟩ => ⟨S512, .f32⟩
  | .hbm, ⟨7, _⟩ => ⟨S32x512, .f32⟩
  | .hbm, ⟨8, _⟩ => ⟨S512, .f32⟩
  | .hbm, ⟨9, _⟩ => ⟨S3x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x128, .f32⟩
  | .hbm, ⟨14, _⟩ => ⟨S128, .f32⟩
  | .hbm, ⟨15, _⟩ => ⟨S512x32, .f32⟩
  | .hbm, ⟨16, _⟩ => ⟨S32, .f32⟩
  | .hbm, ⟨17, _⟩ => ⟨S512x3, .f32⟩
  | .hbm, ⟨18, _⟩ => ⟨S3, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x128, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x3, .f32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000x3, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x32, .f32⟩
  | .hbm, ⟨50, _⟩ => ⟨S320000x512, .f32⟩
  | .hbm, ⟨51, _⟩ => ⟨S320000x32, .f32⟩
  | .hbm, ⟨52, _⟩ => ⟨S_, .f32⟩
  | .hbm, ⟨53, _⟩ => ⟨S20000x512, .f32⟩
  | .hbm, ⟨54, _⟩ => ⟨S320000x1, .i32⟩
  | .hbm, ⟨55, _⟩ => ⟨S20000x512, .f32⟩
  | .hbm, ⟨56, _⟩ => ⟨S1x512, .f32⟩
  | .hbm, ⟨57, _⟩ => ⟨S1x128, .f32⟩
  | .hbm, ⟨58, _⟩ => ⟨S20000x128, .f32⟩
  | .hbm, ⟨59, _⟩ => ⟨S1x512, .f32⟩
  | .hbm, ⟨60, _⟩ => ⟨S1x3, .f32⟩
  | .hbm, ⟨61, _⟩ => ⟨S20000x3, .f32⟩
  | .local _ .vmem, ⟨0, _⟩ => ⟨S2000x32, .f32⟩
  | .local _ .vmem, ⟨1, _⟩ => ⟨S2000x32, .f32⟩
  | .local _ .vmem, ⟨2, _⟩ => ⟨S2000x128, .f32⟩
  | .local _ .vmem, ⟨3, _⟩ => ⟨S2000x128, .f32⟩
  | .local _ .vmem, ⟨4, _⟩ => ⟨S2000x3, .f32⟩
  | .local _ .vmem, ⟨5, _⟩ => ⟨S2000x3, .f32⟩
  | .local _ .vmem, ⟨6, _⟩ => ⟨S2000x3, .f32⟩
  | .local _ .vmem, ⟨7, _⟩ => ⟨S2000x3, .f32⟩
  | .local _ .vmem, ⟨8, _⟩ => ⟨S32x512, .f32⟩
  | .local _ .vmem, ⟨9, _⟩ => ⟨S1x512, .f32⟩
  | .local _ .vmem, ⟨10, _⟩ => ⟨S128x512, .f32⟩
  | .local _ .vmem, ⟨11, _⟩ => ⟨S1x512, .f32⟩
  | .local _ .vmem, ⟨12, _⟩ => ⟨S3x512, .f32⟩
  | .local _ .vmem, ⟨13, _⟩ => ⟨S1x512, .f32⟩
  | .local _ .vmem, ⟨14, _⟩ => ⟨S512x32, .f32⟩
  | .local _ .vmem, ⟨15, _⟩ => ⟨S1x32, .f32⟩
  | .local _ .vmem, ⟨16, _⟩ => ⟨S2000x512, .f32⟩
  | .local _ .vmem, ⟨17, _⟩ => ⟨S2000x512, .f32⟩
  | .local _ .vmem, ⟨18, _⟩ => ⟨S2000x32, .f32⟩
  | .local _ .vmem, ⟨19, _⟩ => ⟨S2000x32, .f32⟩
  | .local _ .vmem, ⟨20, _⟩ => ⟨S2000x512, .f32⟩
  | .local _ .vmem, ⟨21, _⟩ => ⟨S2000x512, .f32⟩
  | .local _ .vmem, ⟨22, _⟩ => ⟨S512x512, .f32⟩
  | .local _ .vmem, ⟨23, _⟩ => ⟨S1x512, .f32⟩
  | .local _ .vmem, ⟨24, _⟩ => ⟨S512x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x3, .f32⟩
  | .local _ .vmem, ⟨31, _⟩ => ⟨S2000x3, .f32⟩
  | .local _ .vmem, ⟨32, _⟩ => ⟨S3x512, .f32⟩
  | .local _ .vmem, ⟨33, _⟩ => ⟨S1x512, .f32⟩
  | .local _ .vmem, ⟨34, _⟩ => ⟨S512x3, .f32⟩
  | .local _ .vmem, ⟨35, _⟩ => ⟨S1x3, .f32⟩
  | .local _ .vmem, ⟨36, _⟩ => ⟨S2000x3, .f32⟩
  | .local _ .vmem, ⟨37, _⟩ => ⟨S2000x3, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem5_1 : DmaSem sig := 27
abbrev cc1_sem6_0 : DmaSem sig := 28
abbrev cc1_sem6_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x3 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  shapeCasts_S512_S1x512 : S512.ShapeCasts S1x512
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  inb_S3x512_S3x512_0_0 : ∀ a, (![0, 0] : Fin 2 → Nat) a + S3x512.size a ≤ S3x512.size a
  h_S3x512 : 0 < S3x512.numel
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S2000x512_S2000x512_0_0 : ∀ a, (![0, 0] : Fin 2 → Nat) a + S2000x512.size a ≤ S2000x512.size a
  h_S2000x512 : 0 < S2000x512.numel
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  bcast_S_S20000x512 : S_.BroadcastsInDim S20000x512 (![] : Fin 0 → Fin S20000x512.rank)
  shapeCasts_S128_S1x128 : S128.ShapeCasts S1x128
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S3_S1x3 : S3.ShapeCasts S1x3
  inb_S512x3_S512x3_0_0 : ∀ a, (![0, 0] : Fin 2 → Nat) a + S512x3.size a ≤ S512x3.size a
  h_S512x3 : 0 < S512x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  gather_S20000x128_S320000x1_S320000x128_1_0_n_n_0_1_1128_wf : GatherDims.WF S20000x128 S320000x1 S320000x128 [1] [0] [] [0] [] 1 ![1, 128]
  gather_S20000x3_S320000x1_S320000x3_1_0_n_n_0_1_13_wf : GatherDims.WF S20000x3 S320000x1 S320000x3 [1] [0] [] [0] [] 1 ![1, 3]
  dot_S2000x32_S32x512_S2000x512_1_0_0_1_n_n_wf : DotDims.WF S2000x32 S32x512 S2000x512 [1] [0] [0] [1] [] []
  dot_S2000x128_S128x512_S2000x512_1_0_0_1_n_n_wf : DotDims.WF S2000x128 S128x512 S2000x512 [1] [0] [0] [1] [] []
  dot_S2000x3_S3x512_S2000x512_1_0_0_1_n_n_wf : DotDims.WF S2000x3 S3x512 S2000x512 [1] [0] [0] [1] [] []
  dot_S2000x512_S512x32_S2000x32_1_0_0_1_n_n_wf : DotDims.WF S2000x512 S512x32 S2000x32 [1] [0] [0] [1] [] []
  scatter_S20000x512_S320000x1_S320000x512_1_0_0_1_wf : ScatterDims.WF S20000x512 S320000x1 S320000x512 [1] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  dot_S2000x512_S512x3_S2000x3_1_0_0_1_n_n_wf : DotDims.WF S2000x512 S512x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S320000x32.size a
  hwx0_0 : ∀ i : grid0.Coords, EltTy.bits .f32 = 32 ∨ (Rect.block (s := S320000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S320000x128.size a
  hwx0_1 : ∀ i : grid0.Coords, EltTy.bits .f32 = 32 ∨ (Rect.block (s := S320000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S320000x3.size a
  hwx0_2 : ∀ i : grid0.Coords, EltTy.bits .f32 = 32 ∨ (Rect.block (s := S320000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S320000x3.size a
  hwx0_3 : ∀ i : grid0.Coords, EltTy.bits .f32 = 32 ∨ (Rect.block (s := S320000x3) S2000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .f32 = 32 ∨ (Rect.block (s := S128x512) S128x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x512.size a ≤ S3x512.size a
  hwx0_8 : ∀ i : grid0.Coords, EltTy.bits .f32 = 32 ∨ (Rect.block (s := S3x512) S3x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x32.size a ≤ S512x32.size a
  hwx0_10 : ∀ i : grid0.Coords, EltTy.bits .f32 = 32 ∨ (Rect.block (s := S512x32) S512x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x512.size a ≤ S320000x512.size a
  hwx0_12 : ∀ i : grid0.Coords, EltTy.bits .f32 = 32 ∨ (Rect.block (s := S320000x512) S2000x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x32.size a ≤ S320000x32.size a
  hwx0_13 : ∀ i : grid0.Coords, EltTy.bits .f32 = 32 ∨ (Rect.block (s := S320000x32) S2000x32.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S20000x128.size a
  hwx1_5 : ∀ i : grid1.Coords, EltTy.bits .f32 = 32 ∨ (Rect.block (s := S20000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x3.size a ≤ S20000x3.size a
  hwx2_0 : ∀ i : grid2.Coords, EltTy.bits .f32 = 32 ∨ (Rect.block (s := S20000x3) S2000x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x512.size a ≤ S3x512.size a
  hwx2_1 : ∀ i : grid2.Coords, EltTy.bits .f32 = 32 ∨ (Rect.block (s := S3x512) S3x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x3.size a ≤ S512x3.size a
  hwx2_3 : ∀ i : grid2.Coords, EltTy.bits .f32 = 32 ∨ (Rect.block (s := S512x3) S512x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x3.size a ≤ S1x3.size a
  hwx2_4 : ∀ i : grid2.Coords, EltTy.bits .f32 = 32 ∨ (Rect.block (s := S1x3) S1x3.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x3.size a ≤ S20000x3.size a
  hwx2_5 : ∀ i : grid2.Coords, EltTy.bits .f32 = 32 ∨ (Rect.block (s := S20000x3) S2000x3.size (cc2_transform_5 i) (hinb2_5 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def dot_S2000x32_S32x512_S2000x512_1_0_0_1_n_n : DotDims S2000x32 S32x512 S2000x512 where
  lhsContracting := [1]
  rhsContracting := [0]
  lhsNonContracting := [0]
  rhsNonContracting := [1]
  lhsBatch := []
  rhsBatch := []
  wf := dot_S2000x32_S32x512_S2000x512_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x3_S3x512_S2000x512_1_0_0_1_n_n : DotDims S2000x3 S3x512 S2000x512 where
  lhsContracting := [1]
  rhsContracting := [0]
  lhsNonContracting := [0]
  rhsNonContracting := [1]
  lhsBatch := []
  rhsBatch := []
  wf := dot_S2000x3_S3x512_S2000x512_1_0_0_1_n_n_wf
def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x512_S512x3_S2000x3_1_0_0_1_n_n : DotDims S2000x512 S512x3 S2000x3 where
  lhsContracting := [1]
  rhsContracting := [0]
  lhsNonContracting := [0]
  rhsNonContracting := [1]
  lhsBatch := []
  rhsBatch := []
  wf := dot_S2000x512_S512x3_S2000x3_1_0_0_1_n_n_wf

abbrev win0_0 : Pipeline.Window sig grid0 :=
  Pipeline.Window.ofSpec (Memref.whole main_arg2) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S512x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25_0) S2000x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v25_1) S2000x32.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v28) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v31) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S2000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S3x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S512x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S2000x3.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x128 : Shape := ⟨2, ![20000, 128]⟩
abbrev S20000x3 : Shape := ⟨2, ![20000, 3]⟩
abbrev S320000x32 : Shape := ⟨2, ![320000, 32]⟩
abbrev S320000 : Shape := ⟨1, ![320000]⟩
abbrev S128x512 : Shape := ⟨2, ![128, 512]⟩
abbrev S512 : Shape := ⟨1, ![512]⟩
abbrev S32x512 : Shape := ⟨2, ![32, 512]⟩
abbrev S3x512 : Shape := ⟨2, ![3, 512]⟩
abbrev S512x512 : Shape := ⟨2, ![512, 512]⟩
abbrev S512x128 : Shape := ⟨2, ![512, 128]⟩
abbrev S128 : Shape := ⟨1, ![128]⟩
abbrev S512x32 : Shape := ⟨2, ![512, 32]⟩
abbrev S32 : Shape := ⟨1, ![32]⟩
abbrev S512x3 : Shape := ⟨2, ![512, 3]⟩
abbrev S3 : Shape := ⟨1, ![3]⟩
abbrev S20000x512 : Shape := ⟨2, ![20000, 512]⟩
abbrev S1x512 : Shape := ⟨2, ![1, 512]⟩
abbrev S_ : Shape := ⟨0, ![]⟩
abbrev S320000x512 : Shape := ⟨2, ![320000, 512]⟩
abbrev S320000x1 : Shape := ⟨2, ![320000, 1]⟩
abbrev S1x128 : Shape := ⟨2, ![1, 128]⟩
abbrev S1x32 : Shape := ⟨2, ![1, 32]⟩
abbrev S1x3 : Shape := ⟨2, ![1, 3]⟩

abbrev nBuf : Space → Nat
  | .hbm => 183
  | .vmem => 0
  | .smem => 0
  | _ => 0

abbrev hbmTy0_0 (i : Nat) : BufTy := match i % 128 with
  | 0 => ⟨S20000x128, .f32⟩
  | 1 => ⟨S20000x3, .f32⟩
  | 2 => ⟨S320000x32, .f32⟩
  | 3 => ⟨S320000, .i32⟩
  | 4 => ⟨S320000, .i32⟩
  | 5 => ⟨S128x512, .f32⟩
  | 6 => ⟨S512, .f32⟩
  | 7 => ⟨S32x512, .f32⟩
  | 8 => ⟨S512, .f32⟩
  | 9 => ⟨S3x512, .f32⟩
  | 10 => ⟨S512, .f32⟩
  | 11 => ⟨S512x512, .f32⟩
  | 12 => ⟨S512, .f32⟩
  | 13 => ⟨S512x128, .f32⟩
  | 14 => ⟨S128, .f32⟩
  | 15 => ⟨S512x32, .f32⟩
  | 16 => ⟨S32, .f32⟩
  | 17 => ⟨S512x3, .f32⟩
  | 18 => ⟨S3, .f32⟩
  | 19 => ⟨S20000x512, .f32⟩
  | 20 => ⟨S1x512, .f32⟩
  | 21 => ⟨S20000x512, .f32⟩
  | 22 => ⟨S20000x512, .f32⟩
  | 23 => ⟨S_, .f32⟩
  | 24 => ⟨S20000x512, .f32⟩
  | 25 => ⟨S20000x512, .f32⟩
  | 26 => ⟨S_, .f32⟩
  | 27 => ⟨S20000x512, .f32⟩
  | 28 => ⟨S20000x512, .f32⟩
  | 29 => ⟨S_, .f32⟩
  | 30 => ⟨S20000x512, .f32⟩
  | 31 => ⟨S20000x512, .f32⟩
  | 32 => ⟨S20000x512, .f32⟩
  | 33 => ⟨S_, .f32⟩
  | 34 => ⟨S20000x512, .f32⟩
  | 35 => ⟨S20000x512, .f32⟩
  | 36 => ⟨S20000x512, .f32⟩
  | 37 => ⟨S320000x512, .f32⟩
  | 38 => ⟨S1x512, .f32⟩
  | 39 => ⟨S320000x512, .f32⟩
  | 40 => ⟨S320000x512, .f32⟩
  | 41 => ⟨S_, .f32⟩
  | 42 => ⟨S320000x512, .f32⟩
  | 43 => ⟨S320000x512, .f32⟩
  | 44 => ⟨S_, .f32⟩
  | 45 => ⟨S320000x512, .f32⟩
  | 46 => ⟨S320000x512, .f32⟩
  | 47 => ⟨S_, .f32⟩
  | 48 => ⟨S320000x512, .f32⟩
  | 49 => ⟨S320000x512, .f32⟩
  | 50 => ⟨S320000x512, .f32⟩
  | 51 => ⟨S_, .f32⟩
  | 52 => ⟨S320000x512, .f32⟩
  | 53 => ⟨S320000x512, .f32⟩
  | 54 => ⟨S320000x512, .f32⟩
  | 55 => ⟨S20000x512, .f32⟩
  | 56 => ⟨S1x512, .f32⟩
  | 57 => ⟨S20000x512, .f32⟩
  | 58 => ⟨S20000x512, .f32⟩
  | 59 => ⟨S_, .f32⟩
  | 60 => ⟨S20000x512, .f32⟩
  | 61 => ⟨S20000x512, .f32⟩
  | 62 => ⟨S_, .f32⟩
  | 63 => ⟨S20000x512, .f32⟩
  | 64 => ⟨S20000x512, .f32⟩
  | 65 => ⟨S_, .f32⟩
  | 66 => ⟨S20000x512, .f32⟩
  | 67 => ⟨S20000x512, .f32⟩
  | 68 => ⟨S20000x512, .f32⟩
  | 69 => ⟨S_, .f32⟩
  | 70 => ⟨S20000x512, .f32⟩
  | 71 => ⟨S20000x512, .f32⟩
  | 72 => ⟨S20000x512, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x512, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x512, .f32⟩
  | 91 => ⟨S320000x512, .f32⟩
  | 92 => ⟨S320000x512, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x512, .f32⟩
  | 102 => ⟨S320000x512, .f32⟩
  | 103 => ⟨S320000x512, .f32⟩
  | 104 => ⟨S_, .f32⟩
  | 105 => ⟨S20000x512, .f32⟩
  | 106 => ⟨S320000x1, .i32⟩
  | 107 => ⟨S20000x512, .f32⟩
  | 108 => ⟨S20000x512, .f32⟩
  | 109 => ⟨S1x512, .f32⟩
  | 110 => ⟨S20000x512, .f32⟩
  | 111 => ⟨S20000x512, .f32⟩
  | 112 => ⟨S_, .f32⟩
  | 113 => ⟨S20000x512, .f32⟩
  | 114 => ⟨S20000x512, .f32⟩
  | 115 => ⟨S_, .f32⟩
  | 116 => ⟨S20000x512, .f32⟩
  | 117 => ⟨S20000x512, .f32⟩
  | 118 => ⟨S_, .f32⟩
  | 119 => ⟨S20000x512, .f32⟩
  | 120 => ⟨S20000x512, .f32⟩
  | 121 => ⟨S20000x512, .f32⟩
  | 122 => ⟨S_, .f32⟩
  | 123 => ⟨S20000x512, .f32⟩
  | 124 => ⟨S20000x512, .f32⟩
  | 125 => ⟨S20000x512, .f32⟩
  | 126 => ⟨S20000x128, .f32⟩
  | 127 => ⟨S1x128, .f32⟩
  | _ => ⟨S20000x128, .f32⟩

abbrev hbmTy0_1 (i : Nat) : BufTy := match i % 128 with
  | 0 => ⟨S20000x128, .f32⟩
  | 1 => ⟨S20000x128, .f32⟩
  | 2 => ⟨S_, .f32⟩
  | 3 => ⟨S20000x128, .f32⟩
  | 4 => ⟨S20000x128, .f32⟩
  | 5 => ⟨S_, .f32⟩
  | 6 => ⟨S20000x128, .f32⟩
  | 7 => ⟨S20000x128, .f32⟩
  | 8 => ⟨S_, .f32⟩
  | 9 => ⟨S20000x128, .f32⟩
  | 10 => ⟨S20000x128, .f32⟩
  | 11 => ⟨S20000x128, .f32⟩
  | 12 => ⟨S_, .f32⟩
  | 13 => ⟨S20000x128, .f32⟩
  | 14 => ⟨S20000x128, .f32⟩
  | 15 => ⟨S20000x128, .f32⟩
  | 16 => ⟨S20000x128, .f32⟩
  | 17 => ⟨S320000x32, .f32⟩
  | 18 => ⟨S1x32, .f32⟩
  | 19 => ⟨S320000x32, .f32⟩
  | 20 => ⟨S320000x32, .f32⟩
  | 21 => ⟨S_, .f32⟩
  | 22 => ⟨S320000x32, .f32⟩
  | 23 => ⟨S320000x32, .f32⟩
  | 24 => ⟨S_, .f32⟩
  | 25 => ⟨S320000x32, .f32⟩
  | 26 => ⟨S320000x32, .f32⟩
  | 27 => ⟨S_, .f32⟩
  | 28 => ⟨S320000x32, .f32⟩
  | 29 => ⟨S320000x32, .f32⟩
  | 30 => ⟨S320000x32, .f32⟩
  | 31 => ⟨S_, .f32⟩
  | 32 => ⟨S320000x32, .f32⟩
  | 33 => ⟨S320000x32, .f32⟩
  | 34 => ⟨S320000x32, .f32⟩
  | 35 => ⟨S320000x32, .f32⟩
  | 36 => ⟨S20000x3, .f32⟩
  | 37 => ⟨S1x3, .f32⟩
  | 38 => ⟨S20000x3, .f32⟩
  | 39 => ⟨S20000x3, .f32⟩
  | 40 => ⟨S_, .f32⟩
  | 41 => ⟨S20000x3, .f32⟩
  | 42 => ⟨S20000x3, .f32⟩
  | 43 => ⟨S_, .f32⟩
  | 44 => ⟨S20000x3, .f32⟩
  | 45 => ⟨S20000x3, .f32⟩
  | 46 => ⟨S_, .f32⟩
  | 47 => ⟨S20000x3, .f32⟩
  | 48 => ⟨S20000x3, .f32⟩
  | 49 => ⟨S20000x3, .f32⟩
  | 50 => ⟨S_, .f32⟩
  | 51 => ⟨S20000x3, .f32⟩
  | 52 => ⟨S20000x3, .f32⟩
  | 53 => ⟨S20000x3, .f32⟩
  | 54 => ⟨S20000x3, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_cst_1 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_2 : Ref sig .tc := ⟨.hbm, 33, rfl⟩
abbrev main_call0_v7 : Ref sig .tc := ⟨.hbm, 34, rfl⟩
abbrev main_call0_v8 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_cst_1 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_cst_2 : Ref sig .tc := ⟨.hbm, 51, rfl⟩
abbrev main_call1_v7 : Ref sig .tc := ⟨.hbm, 52, rfl⟩
abbrev main_call1_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_cst_1 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_cst_2 : Ref sig .tc := ⟨.hbm, 69, rfl⟩
abbrev main_call2_v7 : Ref sig .tc := ⟨.hbm, 70, rfl⟩
abbrev main_call2_v8 : Ref sig .tc := ⟨.hbm, 71, rfl⟩
abbrev main_v14 : Ref sig .tc := ⟨.hbm, 72, rfl⟩
abbrev main_c : Ref sig .tc := ⟨.hbm, 73, rfl⟩
abbrev main_v15 : Ref sig .tc := ⟨.hbm, 74, rfl⟩
abbrev main_v16 : Ref sig .tc := ⟨.hbm, 75, rfl⟩
abbrev main_c_0 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_c_1 : Ref sig .tc := ⟨.hbm, 82, rfl⟩
abbrev main_v22 : Ref sig .tc := ⟨.hbm, 83, rfl⟩
abbrev main_v23 : Ref sig .tc := ⟨.hbm, 84, rfl⟩
abbrev main_c_2 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_c_3 : Ref sig .tc := ⟨.hbm, 93, rfl⟩
abbrev main_v31 : Ref sig .tc := ⟨.hbm, 94, rfl⟩
abbrev main_v32 : Ref sig .tc := ⟨.hbm, 95, rfl⟩
abbrev main_c_4 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_cst : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_cst_0 : Ref sig .tc := ⟨.hbm, 115, rfl⟩
abbrev main_call3_v2 : Ref sig .tc := ⟨.hbm, 116, rfl⟩
abbrev main_call3_v3 : Ref sig .tc := ⟨.hbm, 117, rfl⟩
abbrev main_call3_cst_1 : Ref sig .tc := ⟨.hbm, 118, rfl⟩
abbrev main_call3_v4 : Ref sig .tc := ⟨.hbm, 119, rfl⟩
abbrev main_call3_v5 : Ref sig .tc := ⟨.hbm, 120, rfl⟩
abbrev main_call3_v6 : Ref sig .tc := ⟨.hbm, 121, rfl⟩
abbrev main_call3_cst_2 : Ref sig .tc := ⟨.hbm, 122, rfl⟩
abbrev main_call3_v7 : Ref sig .tc := ⟨.hbm, 123, rfl⟩
abbrev main_call3_v8 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_cst_1 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_cst_2 : Ref sig .tc := ⟨.hbm, 140, rfl⟩
abbrev main_call4_v7 : Ref sig .tc := ⟨.hbm, 141, rfl⟩
abbrev main_call4_v8 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_call5_cst : Ref sig .tc := ⟨.hbm, 149, rfl⟩
abbrev main_call5_v0 : Ref sig .tc := ⟨.hbm, 150, rfl⟩
abbrev main_call5_v1 : Ref sig .tc := ⟨.hbm, 151, rfl⟩
abbrev main_call5_cst_0 : Ref sig .tc := ⟨.hbm, 152, rfl⟩
abbrev main_call5_v2 : Ref sig .tc := ⟨.hbm, 153, rfl⟩
abbrev main_call5_v3 : Ref sig .tc := ⟨.hbm, 154, rfl⟩
abbrev main_call5_cst_1 : Ref sig .tc := ⟨.hbm, 155, rfl⟩
abbrev main_call5_v4 : Ref sig .tc := ⟨.hbm, 156, rfl⟩
abbrev main_call5_v5 : Ref sig .tc := ⟨.hbm, 157, rfl⟩
abbrev main_call5_v6 : Ref sig .tc := ⟨.hbm, 158, rfl⟩
abbrev main_call5_cst_2 : Ref sig .tc := ⟨.hbm, 159, rfl⟩
abbrev main_call5_v7 : Ref sig .tc := ⟨.hbm, 160, rfl⟩
abbrev main_call5_v8 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_call6_cst : Ref sig .tc := ⟨.hbm, 168, rfl⟩
abbrev main_call6_v0 : Ref sig .tc := ⟨.hbm, 169, rfl⟩
abbrev main_call6_v1 : Ref sig .tc := ⟨.hbm, 170, rfl⟩
abbrev main_call6_cst_0 : Ref sig .tc := ⟨.hbm, 171, rfl⟩
abbrev main_call6_v2 : Ref sig .tc := ⟨.hbm, 172, rfl⟩
abbrev main_call6_v3 : Ref sig .tc := ⟨.hbm, 173, rfl⟩
abbrev main_call6_cst_1 : Ref sig .tc := ⟨.hbm, 174, rfl⟩
abbrev main_call6_v4 : Ref sig .tc := ⟨.hbm, 175, rfl⟩
abbrev main_call6_v5 : Ref sig .tc := ⟨.hbm, 176, rfl⟩
abbrev main_call6_v6 : Ref sig .tc := ⟨.hbm, 177, rfl⟩
abbrev main_call6_cst_2 : Ref sig .tc := ⟨.hbm, 178, rfl⟩
abbrev main_call6_v7 : Ref sig .tc := ⟨.hbm, 179, rfl⟩
abbrev main_call6_v8 : Ref sig .tc := ⟨.hbm, 180, rfl⟩
abbrev main_v64 : Ref sig .tc := ⟨.hbm, 181, rfl⟩
abbrev main_v65 : Ref sig .tc := ⟨.hbm, 182, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S_S320000 : S_.BroadcastsInDim S320000 (![] : Fin 0 → Fin S320000.rank)
  bcast_S320000_S320000x1_0 : S320000.BroadcastsInDim S320000x1 (![0] : Fin 1 → Fin S320000x1.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S32_S1x32_1 : S32.BroadcastsInDim S1x32 (![1] : Fin 1 → Fin S1x32.rank)
  bcast_S1x32_S320000x32_0_1 : S1x32.BroadcastsInDim S320000x32 (![0, 1] : Fin 2 → Fin S320000x32.rank)
  bcast_S_S320000x32 : S_.BroadcastsInDim S320000x32 (![] : Fin 0 → Fin S320000x32.rank)
  bcast_S3_S1x3_1 : S3.BroadcastsInDim S1x3 (![1] : Fin 1 → Fin S1x3.rank)
  bcast_S1x3_S20000x3_0_1 : S1x3.BroadcastsInDim S20000x3 (![0, 1] : Fin 2 → Fin S20000x3.rank)
  bcast_S_S20000x3 : S_.BroadcastsInDim S20000x3 (![] : Fin 0 → Fin S20000x3.rank)
  dot_S20000x128_S128x512_S20000x512_1_0_0_1_n_n_wf : DotDims.WF S20000x128 S128x512 S20000x512 [1] [0] [0] [1] [] []
  dot_S320000x32_S32x512_S320000x512_1_0_0_1_n_n_wf : DotDims.WF S320000x32 S32x512 S320000x512 [1] [0] [0] [1] [] []
  dot_S20000x3_S3x512_S20000x512_1_0_0_1_n_n_wf : DotDims.WF S20000x3 S3x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x512_S20000x512_1_0_0_1_n_n_wf : DotDims.WF S20000x512 S512x512 S20000x512 [1] [0] [0] [1] [] []
  dot_S20000x512_S512x128_S20000x128_1_0_0_1_n_n_wf : DotDims.WF S20000x512 S512x128 S20000x128 [1] [0] [0] [1] [] []
  dot_S320000x512_S512x32_S320000x32_1_0_0_1_n_n_wf : DotDims.WF S320000x512 S512x32 S320000x32 [1] [0] [0] [1] [] []
  dot_S20000x512_S512x3_S20000x3_1_0_0_1_n_n_wf : DotDims.WF S20000x512 S512x3 S20000x3 [1] [0] [0] [1] [] []

variable [Facts₀]

def dot_S20000x128_S128x512_S20000x512_1_0_0_1_n_n : DotDims S20000x128 S128x512 S20000x512 where
  lhsContracting := [1]
  rhsContracting := [0]
  lhsNonContracting := [0]
  rhsNonContracting := [1]
  lhsBatch := []
  rhsBatch := []
  wf := dot_S20000x128_S128x512_S20000x512_1_0_0_1_n_n_wf
def dot_S320000x32_S32x512_S320000x512_1_0_0_1_n_n : DotDims S320000x32 S32x512 S320000x512 where
  lhsContracting := [1]
  rhsContracting := [0]
  lhsNonContracting := [0]
  rhsNonContracting := [1]
  lhsBatch := []
  rhsBatch := []
  wf := dot_S320000x32_S32x512_S320000x512_1_0_0_1_n_n_wf
def dot_S20000x3_S3x512_S20000x512_1_0_0_1_n_n : DotDims S20000x3 S3x512 S20000x512 where
  lhsContracting := [1]
  rhsContracting := [0]
  lhsNonContracting := [0]
  rhsNonContracting := [1]
  lhsBatch := []
  rhsBatch := []
  wf := dot_S20000x3_S3x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S512x128_S20000x128_1_0_0_1_n_n : DotDims S20000x512 S512x128 S20000x128 where
  lhsContracting := [1]
  rhsContracting := [0]
  lhsNonContracting := [0]
  rhsNonContracting := [1]
  lhsBatch := []
  rhsBatch := []
  wf := dot_S20000x512_S512x128_S20000x128_1_0_0_1_n_n_wf
def dot_S320000x512_S512x32_S320000x32_1_0_0_1_n_n : DotDims S320000x512 S512x32 S320000x32 where
  lhsContracting := [1]
  rhsContracting := [0]
  lhsNonContracting := [0]
  rhsNonContracting := [1]
  lhsBatch := []
  rhsBatch := []
  wf := dot_S320000x512_S512x32_S320000x32_1_0_0_1_n_n_wf
def dot_S20000x512_S512x3_S20000x3_1_0_0_1_n_n : DotDims S20000x512 S512x3 S20000x3 where
  lhsContracting := [1]
  rhsContracting := [0]
  lhsNonContracting := [0]
  rhsNonContracting := [1]
  lhsBatch := []
  rhsBatch := []
  wf := dot_S20000x512_S512x3_S20000x3_1_0_0_1_n_n_wf

class Facts : Prop extends Facts₀ where

variable [Facts]
-- ==== Proof.KRun.lean ====
/-
  The idealized kernel's run, read for values.  @main is three kernel regions among stretches of host operations;
  the buffer contents at each boundary form a fold from the launch memory: a host stretch applies its operations,
  a region replaces each of its arrays by what its write-backs leave.  Every weakly fair execution terminates with
  every unscoped buffer at the last stage of that fold.  Walking the fold back from the three result buffers:
  the node output is region 1's output array, the coordinate output is region 2's, the edge output is region 0's
  second output array, untouched by everything after it.
-/
import proofs.«154357_j34986803593905_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every unscoped buffer of every core ends at the last stage
    of the fold through @main's segments. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The second host stretch writes neither region 0's second output nor anything before it. -/
theorem hostOps1_keeps_v25_1 (c : Dev nD) :
    W3 m ρ c (Proc.devRef .tc main_v25_1) = W2 m ρ c (Proc.devRef .tc main_v25_1) :=
  StableHlo.after_of_forall_not_mem (b := Proc.devRef .tc main_v25_1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third host stretch (two bias reshapes) writes no result buffer. -/
theorem hostOps2_keeps (c : Dev nD) (b : Ref sig .tc) (h32 : b ≠ main_v32) (h33 : b ≠ main_v33) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h32, StableHlo.devRef_ne_of_ne h33⟩))

/-- The node output buffer ends at region 1's output array. -/
theorem W6_main_v31 (c : Dev nD) : W6 m ρ c (Proc.devRef .tc main_v31) = (dat1 (V3 m ρ) c).arrAt 6 cfg1.N :=
  calc W6 m ρ c (Proc.devRef .tc main_v31)
    _ = W5 m ρ c (Proc.devRef .tc main_v31) := W6_of_ne m ρ c main_v31 (by decide)
    _ = W4 m ρ c (Proc.devRef .tc main_v31) := hostOps2_keeps m ρ c main_v31 (by decide) (by decide)
    _ = (dat1 (V3 m ρ) c).arrAt 6 cfg1.N := W4_arr m ρ c 6

/-- The coordinate output buffer ends at region 2's output array. -/
theorem W6_main_v34 (c : Dev nD) : W6 m ρ c (Proc.devRef .tc main_v34) = (dat2 (V5 m ρ) c).arrAt 5 cfg2.N :=
  W6_arr m ρ c 5

/-- The edge output buffer ends at region 0's second output array. -/
theorem W6_main_v25_1 (c : Dev nD) : W6 m ρ c (Proc.devRef .tc main_v25_1) = (dat0 (V1 m ρ) c).arrAt 13 cfg0.N :=
  calc W6 m ρ c (Proc.devRef .tc main_v25_1)
    _ = W5 m ρ c (Proc.devRef .tc main_v25_1) := W6_of_ne m ρ c main_v25_1 (by decide)
    _ = W4 m ρ c (Proc.devRef .tc main_v25_1) := hostOps2_keeps m ρ c main_v25_1 (by decide) (by decide)
    _ = W3 m ρ c (Proc.devRef .tc main_v25_1) := W4_of_ne m ρ c main_v25_1 (by decide)
    _ = W2 m ρ c (Proc.devRef .tc main_v25_1) := hostOps1_keeps_v25_1 m ρ c
    _ = (dat0 (V1 m ρ) c).arrAt 13 cfg0.N := W2_arr m ρ c 13

/-- The run with the three results named and the arguments unchanged. -/
theorem run_results : θ_run defs (onTc (τ := τ) (main (F := F))) ⟨m, fun _ => 0, ρ⟩ (fun r => ∀ c : Dev nD,
      r.2.mem ((c.tc : Thread nD τ).loc main_v31) = (dat1 (V3 m ρ) c).arrAt 6 cfg1.N
      ∧ r.2.mem ((c.tc : Thread nD τ).loc main_v34) = (dat2 (V5 m ρ) c).arrAt 5 cfg2.N
      ∧ r.2.mem ((c.tc : Thread nD τ).loc main_v25_1) = (dat0 (V1 m ρ) c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v31 (by decide))).trans (W6_main_v31 m ρ c),
     (h c _ (mem_uc main_v34 (by decide))).trans (W6_main_v34 m ρ c),
     (h c _ (mem_uc main_v25_1 (by decide))).trans (W6_main_v25_1 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c)⟩)
    (run_fold m ρ)

end Cert.KernelIdeal.RunV

end
-- ==== Proof.Spec.lean ====
/-
  The scalar mathematics shared by the two programs, over the extended reals.

  CELU with alpha = 1 is spelt in two ways.  One program selects: for x > 0 it returns x, otherwise
  exp(min(x, 0)) - 1.  The other adds: max(x, 0) + 1 * (exp(min(x, 0) / 1) - 1).  On every extended real the two
  agree: for x > 0 the second summand is 1 * (exp 0 - 1) = 0, and for x ≤ 0 the first summand is 0 while
  min(x, 0) = x; dividing by one and multiplying by one change nothing, also at the two infinities.

  A dense layer followed by CELU, read at row r and column c, is CELU of the sum over the contracted coordinate of
  the products of the entries plus the bias entry of column c.
-/
import Idealize.ShloMosaic.PureOps.Ideal.Laws
import Idealize.ShloMosaic.Lib.ValueIdx

noncomputable section

namespace Cert.Spec

open Idealize.ShloMosaic Idealize.ShloMosaic.ValueIdx

/-- The word of the float `1.0` denotes the real number one. -/
theorem ofBits_one : Ideal.ofBits .f32 0x3F800000#32 = (1 : EReal) := by
  simp [Ideal.ofBits, Ideal.ieee, -EReal.coe_mul]; norm_num

/-- CELU as a selection on the sign. -/
def celuSel (x : EReal) : EReal := Scalar.select (Ideal.cmp .ogt x 0) x (Ideal.exp (min x 0) - 1)

/-- CELU as a sum of the positive part and the scaled exponential of the negative part. -/
def celuMax (x : EReal) : EReal := max x 0 + 1 * (Ideal.exp (Ideal.div (min x 0) 1) - 1)

/-- Dividing an extended real by one leaves it unchanged. -/
theorem div_one (x : EReal) : Ideal.div x 1 = x := by
  have h := Ideal.div_coe (y := 1) one_ne_zero x
  rw [EReal.coe_one] at h
  rw [h]; simp

/-- The two spellings of CELU are one function on the extended reals. -/
theorem celuMax_eq_celuSel (x : EReal) : celuMax x = celuSel x := by
  unfold celuMax celuSel
  rw [div_one, one_mul]
  by_cases h : (0 : EReal) < x
  · have hc : Ideal.cmp .ogt x 0 = 1#1 := by simp [Ideal.cmp, h]
    rw [hc, select_one, max_eq_left h.le, min_eq_right h.le]
    have e0 : Ideal.exp (0 : EReal) = 1 := by
      rw [← EReal.coe_zero, Ideal.exp_coe, Real.exp_zero, EReal.coe_one]
    rw [e0]
    have : (1 : EReal) - 1 = 0 := by
      rw [← EReal.coe_one, ← EReal.coe_sub, sub_self, EReal.coe_zero]
    rw [this, add_zero]
  · have hc : Ideal.cmp .ogt x 0 = 0#1 := by simp [Ideal.cmp, h]
    have hx : x ≤ 0 := not_lt.mp h
    rw [hc, select_zero, max_eq_right hx, min_eq_left hx, zero_add]

/-- A length-n vector as the one row of a [1, n] matrix. -/
def rowOf {n : ℕ} (b : (⟨1, ![n]⟩ : Shape).Idx → EReal) : (⟨2, ![1, n]⟩ : Shape).Idx → EReal := fun j => b (ix1 (j 1))

theorem rowOf_apply {n : ℕ} (b : (⟨1, ![n]⟩ : Shape).Idx → EReal) (z : Fin 1) (c : Fin n) : rowOf b (ix2 z c) = b (ix1 c) := rfl

/-- One dense layer followed by CELU (the selecting spelling), at row `r` and column `c`: `A` is the input
    matrix, `W` the weights, `b` the bias row. -/
def layer {m k n : ℕ} (A : (⟨2, ![m, k]⟩ : Shape).Idx → EReal) (W : (⟨2, ![k, n]⟩ : Shape).Idx → EReal)
    (b : (⟨2, ![1, n]⟩ : Shape).Idx → EReal) (r : Fin m) (c : Fin n) : EReal :=
  celuSel (∑ i : Fin k, A (ix2 r i) * W (ix2 i c) + b (ix2 (0 : Fin 1) c))

/-- The layer as a matrix. -/
def layerM {m k n : ℕ} (A : (⟨2, ![m, k]⟩ : Shape).Idx → EReal) (W : (⟨2, ![k, n]⟩ : Shape).Idx → EReal)
    (b : (⟨2, ![1, n]⟩ : Shape).Idx → EReal) : (⟨2, ![m, n]⟩ : Shape).Idx → EReal :=
  fun j => layer A W b (j 0) (j 1)

theorem layerM_apply {m k n : ℕ} (A : (⟨2, ![m, k]⟩ : Shape).Idx → EReal) (W : (⟨2, ![k, n]⟩ : Shape).Idx → EReal)
    (b : (⟨2, ![1, n]⟩ : Shape).Idx → EReal) (r : Fin m) (c : Fin n) :
    layerM A W b (ix2 r c) = layer A W b r c := rfl

/-- A layer's row depends only on the same row of its input. -/
theorem layer_congr_row {m m' k n : ℕ} (A : (⟨2, ![m, k]⟩ : Shape).Idx → EReal) (A' : (⟨2, ![m', k]⟩ : Shape).Idx → EReal)
    (W : (⟨2, ![k, n]⟩ : Shape).Idx → EReal) (b : (⟨2, ![1, n]⟩ : Shape).Idx → EReal) (r : Fin m) (r' : Fin m')
    (h : ∀ i : Fin k, A (ix2 r i) = A' (ix2 r' i)) (c : Fin n) : layer A W b r c = layer A' W b r' c := by
  unfold layer
  rw [Finset.sum_congr rfl fun i _ => by rw [h i]]

/-- A residual block: the input `X` plus two dense layers with CELU applied to `A`. -/
def residual2 {m k h n : ℕ} (X : (⟨2, ![m, n]⟩ : Shape).Idx → EReal) (A : (⟨2, ![m, k]⟩ : Shape).Idx → EReal)
    (W1 : (⟨2, ![k, h]⟩ : Shape).Idx → EReal) (b1 : (⟨2, ![1, h]⟩ : Shape).Idx → EReal)
    (W2 : (⟨2, ![h, n]⟩ : Shape).Idx → EReal) (b2 : (⟨2, ![1, n]⟩ : Shape).Idx → EReal) :
    (⟨2, ![m, n]⟩ : Shape).Idx → EReal :=
  fun j => X j + layerM (layerM A W1 b1) W2 b2 j

theorem residual2_apply {m k h n : ℕ} (X : (⟨2, ![m, n]⟩ : Shape).Idx → EReal) (A : (⟨2, ![m, k]⟩ : Shape).Idx → EReal)
    (W1 : (⟨2, ![k, h]⟩ : Shape).Idx → EReal) (b1 : (⟨2, ![1, h]⟩ : Shape).Idx → EReal)
    (W2 : (⟨2, ![h, n]⟩ : Shape).Idx → EReal) (b2 : (⟨2, ![1, n]⟩ : Shape).Idx → EReal) (r : Fin m) (c : Fin n) :
    residual2 X A W1 b1 W2 b2 (ix2 r c) = X (ix2 r c) + layer (layerM A W1 b1) W2 b2 r c := rfl

/-- A row of the residual block depends only on the same row of its two inputs. -/
theorem residual2_congr_row {m m' k h n : ℕ}
    (X : (⟨2, ![m, n]⟩ : Shape).Idx → EReal) (A : (⟨2, ![m, k]⟩ : Shape).Idx → EReal)
    (X' : (⟨2, ![m', n]⟩ : Shape).Idx → EReal) (A' : (⟨2, ![m', k]⟩ : Shape).Idx → EReal)
    (W1 : (⟨2, ![k, h]⟩ : Shape).Idx → EReal) (b1 : (⟨2, ![1, h]⟩ : Shape).Idx → EReal)
    (W2 : (⟨2, ![h, n]⟩ : Shape).Idx → EReal) (b2 : (⟨2, ![1, n]⟩ : Shape).Idx → EReal)
    (r : Fin m) (r' : Fin m') (c : Fin n)
    (hX : X (ix2 r c) = X' (ix2 r' c)) (hA : ∀ i : Fin k, A (ix2 r i) = A' (ix2 r' i)) :
    residual2 X A W1 b1 W2 b2 (ix2 r c) = residual2 X' A' W1 b1 W2 b2 (ix2 r' c) := by
  rw [residual2_apply, residual2_apply, hX]
  congr 1
  exact layer_congr_row (layerM A W1 b1) (layerM A' W1 b1) W2 b2 r r'
    (fun i => by rw [layerM_apply, layerM_apply]; exact layer_congr_row A A' W1 b1 r r' hA i) c

/-- The edge message: the absolute difference of the two expanded coordinate rows times the product of the
    expanded node row and the expanded edge row. -/
def edgeMsg {E kc kh ke H : ℕ}
    (cd cs : (⟨2, ![E, kc]⟩ : Shape).Idx → EReal) (hs : (⟨2, ![E, kh]⟩ : Shape).Idx → EReal)
    (ef : (⟨2, ![E, ke]⟩ : Shape).Idx → EReal)
    (Wc : (⟨2, ![kc, H]⟩ : Shape).Idx → EReal) (bc : (⟨2, ![1, H]⟩ : Shape).Idx → EReal)
    (Wn : (⟨2, ![kh, H]⟩ : Shape).Idx → EReal) (bn : (⟨2, ![1, H]⟩ : Shape).Idx → EReal)
    (We : (⟨2, ![ke, H]⟩ : Shape).Idx → EReal) (be : (⟨2, ![1, H]⟩ : Shape).Idx → EReal) :
    (⟨2, ![E, H]⟩ : Shape).Idx → EReal :=
  fun j => max (layerM cd Wc bc j - layerM cs Wc bc j) (-(layerM cd Wc bc j - layerM cs Wc bc j))
    * (layerM hs Wn bn j * layerM ef We be j)

theorem edgeMsg_apply {E kc kh ke H : ℕ}
    (cd cs : (⟨2, ![E, kc]⟩ : Shape).Idx → EReal) (hs : (⟨2, ![E, kh]⟩ : Shape).Idx → EReal)
    (ef : (⟨2, ![E, ke]⟩ : Shape).Idx → EReal)
    (Wc : (⟨2, ![kc, H]⟩ : Shape).Idx → EReal) (bc : (⟨2, ![1, H]⟩ : Shape).Idx → EReal)
    (Wn : (⟨2, ![kh, H]⟩ : Shape).Idx → EReal) (bn : (⟨2, ![1, H]⟩ : Shape).Idx → EReal)
    (We : (⟨2, ![ke, H]⟩ : Shape).Idx → EReal) (be : (⟨2, ![1, H]⟩ : Shape).Idx → EReal) (r : Fin E) (c : Fin H) :
    edgeMsg cd cs hs ef Wc bc Wn bn We be (ix2 r c)
      = max (layer cd Wc bc r c - layer cs Wc bc r c) (-(layer cd Wc bc r c - layer cs Wc bc r c))
        * (layer hs Wn bn r c * layer ef We be r c) := rfl

/-- A row of the edge message depends only on the same row of its four inputs. -/
theorem edgeMsg_congr_row {E E' kc kh ke H : ℕ}
    (cd cs : (⟨2, ![E, kc]⟩ : Shape).Idx → EReal) (hs : (⟨2, ![E, kh]⟩ : Shape).Idx → EReal)
    (ef : (⟨2, ![E, ke]⟩ : Shape).Idx → EReal)
    (cd' cs' : (⟨2, ![E', kc]⟩ : Shape).Idx → EReal) (hs' : (⟨2, ![E', kh]⟩ : Shape).Idx → EReal)
    (ef' : (⟨2, ![E', ke]⟩ : Shape).Idx → EReal)
    (Wc : (⟨2, ![kc, H]⟩ : Shape).Idx → EReal) (bc : (⟨2, ![1, H]⟩ : Shape).Idx → EReal)
    (Wn : (⟨2, ![kh, H]⟩ : Shape).Idx → EReal) (bn : (⟨2, ![1, H]⟩ : Shape).Idx → EReal)
    (We : (⟨2, ![ke, H]⟩ : Shape).Idx → EReal) (be : (⟨2, ![1, H]⟩ : Shape).Idx → EReal)
    (r : Fin E) (r' : Fin E') (c : Fin H)
    (hcd : ∀ i, cd (ix2 r i) = cd' (ix2 r' i)) (hcs : ∀ i, cs (ix2 r i) = cs' (ix2 r' i))
    (hhs : ∀ i, hs (ix2 r i) = hs' (ix2 r' i)) (hef : ∀ i, ef (ix2 r i) = ef' (ix2 r' i)) :
    edgeMsg cd cs hs ef Wc bc Wn bn We be (ix2 r c) = edgeMsg cd' cs' hs' ef' Wc bc Wn bn We be (ix2 r' c) := by
  rw [edgeMsg_apply, edgeMsg_apply, layer_congr_row cd cd' Wc bc r r' hcd c, layer_congr_row cs cs' Wc bc r r' hcs c,
    layer_congr_row hs hs' Wn bn r r' hhs c, layer_congr_row ef ef' We be r r' hef c]

end Cert.Spec

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.KLayer.lean ====
/-
  One dense layer followed by CELU, as a kernel body spells it on whole vectors: the matrix product of an [m, k]
  block with a [k, n] weight block accumulated into the zero splat, plus the bias row cast to itself and broadcast
  down the rows; then the selection "x > 0 ? x : exp(min(x, 0)) - 1" against splats of 0 and 1.  Read at (r, c) this
  is CELU of the sum over the contracted coordinate plus the bias entry, the function `Spec.layer`.
-/
import proofs.«154357_j34986803593905_2_alg».proof.Proof.Spec
import proofs.«154357_j34986803593905_2_alg».proof.Proof.LibRowOps

noncomputable section

namespace Cert.KernelBody

open Idealize.ShloMosaic Idealize.ShloMosaic.ValueIdx

/-- The body's CELU of a vector: the selection against splats of the float words 0 and 1. -/
def celuVec {s : Shape} (v : FVec Ideal s .f32) : FVec Ideal s .f32 :=
  select (cmpf .ogt v (broadcast s (Scalar.ofBits (F := Ideal) .f32 0x00000000#32))) v
    (subf (exp (minimumf v (broadcast s (Scalar.ofBits (F := Ideal) .f32 0x00000000#32))))
      (broadcast s (Scalar.ofBits (F := Ideal) .f32 0x3F800000#32)))

theorem celuVec_apply {s : Shape} (v : FVec Ideal s .f32) (i : s.Idx) : celuVec v i = Spec.celuSel (v i) := by
  show Scalar.select (Ideal.cmp .ogt (v i) (Ideal.ofBits .f32 0x00000000#32)) (v i)
    (Ideal.exp (min (v i) (Ideal.ofBits .f32 0x00000000#32)) - Ideal.ofBits .f32 0x3F800000#32) = _
  rw [Ideal.ofBits_zero_f32, Spec.ofBits_one]
  rfl

/-- The body's dense layer with CELU on whole vectors. -/
def layerVec {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (W : FVec Ideal ⟨2, ![k, n]⟩ φ₂) (b : FVec Ideal ⟨2, ![1, n]⟩ .f32)
    (hc : (⟨2, ![1, n]⟩ : Shape).ShapeCasts ⟨2, ![1, n]⟩) (hb : (⟨2, ![1, n]⟩ : Shape).Broadcasts ⟨2, ![m, n]⟩) :
    FVec Ideal ⟨2, ![m, n]⟩ .f32 :=
  celuVec (addf (matmul (⟨[1], [0], [0], [1], [], [], w⟩ : DotDims _ _ _) none A W
      (constant (F := Ideal) ⟨2, ![m, n]⟩ .f32 0x00000000#32))
    (broadcastTo ⟨2, ![m, n]⟩ (shapeCast ⟨2, ![1, n]⟩ b hc) hb))

theorem layerVec_eq {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (W : FVec Ideal ⟨2, ![k, n]⟩ φ₂) (b : FVec Ideal ⟨2, ![1, n]⟩ .f32)
    (hc : (⟨2, ![1, n]⟩ : Shape).ShapeCasts ⟨2, ![1, n]⟩) (hb : (⟨2, ![1, n]⟩ : Shape).Broadcasts ⟨2, ![m, n]⟩) :
    layerVec w A W b hc hb = Spec.layerM A W b := by
  funext j
  obtain ⟨r, c, rfl⟩ : ∃ (r : Fin m) (c : Fin n), j = ix2 r c := ⟨j 0, j 1, eq_ix2 j⟩
  unfold layerVec
  rw [celuVec_apply, addf_apply, matmul_plain_zero_apply, broadcastTo_row_apply, shapeCast_self]
  rfl

end Cert.KernelBody

end
-- ==== Proof.KFinal0.lean ====
/-
  Region 0, the fused edge path.  Each grid point t reads rows 2000·t … 2000·t + 1999 of the edge features and of
  the three gathered per-edge arrays (node features of the source, coordinates of the source and of the destination)
  and the whole of four weight matrices and four bias rows.  Its body expands the four row blocks by a dense layer
  with CELU each, writes the edge message |c_dst - c_src| · (h_src · e) and the residual edge output
  ef + CELU(e · Weo + beo).  A row of either result depends only on the same row of the row-blocked inputs, so block t
  of each written array is block t of the same function of the whole arrays, and the 160 blocks tile each array.
-/
import proofs.«154357_j34986803593905_2_alg».proof.Proof.Gen.KernelIdeal.Frame
import proofs.«154357_j34986803593905_2_alg».proof.Proof.KLayer
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx Cert.KernelBody
open Idealize.ShloMosaic.Pipeline (Dat Cfg Window)

theorem hz : (![0, 0] : Fin 2 → Nat) = fun _ => 0 := funext fun a => by fin_cases a <;> rfl

/-- The message payload is the edge message of the loaded blocks (a block cast to its own shape is itself). -/
theorem pay12_eq (x0 : Vec Ideal S2000x32 .f32) (x1 : Vec Ideal S2000x128 .f32) (x2 : Vec Ideal S2000x3 .f32)
    (x3 : Vec Ideal S2000x3 .f32) (x4 : Vec Ideal S32x512 .f32) (x5 : Vec Ideal S1x512 .f32)
    (x6 : Vec Ideal S128x512 .f32) (x7 : Vec Ideal S1x512 .f32) (x8 : Vec Ideal S3x512 .f32) (x9 : Vec Ideal S1x512 .f32) :
    k0_pay5 (F := Ideal) (k0_pay2 x0 x4 x5) (k0_pay3 x1 x6 x7) (k0_pay4 x8) x2 x9 x3 x9
      = Spec.edgeMsg x3 x2 x1 x0 x8 x9 x6 x7 x4 x5 := by
  have h : k0_pay5 (F := Ideal) (k0_pay2 x0 x4 x5) (k0_pay3 x1 x6 x7) (k0_pay4 x8) x2 x9 x3 x9
      = mulf (absf (subf
          (layerVec (φ₁ := .bf16) (φ₂ := .bf16) Gen.dot_S2000x3_S3x512_S2000x512_1_0_0_1_n_n_wf
            (shapeCast S2000x3 x3 Gen.shapeCasts_S2000x3_S2000x3) x8 x9
            Gen.shapeCasts_S1x512_S1x512 Gen.broadcasts_S1x512_S2000x512)
          (layerVec (φ₁ := .bf16) (φ₂ := .bf16) Gen.dot_S2000x3_S3x512_S2000x512_1_0_0_1_n_n_wf
            (shapeCast S2000x3 x2 Gen.shapeCasts_S2000x3_S2000x3) x8 x9
            Gen.shapeCasts_S1x512_S1x512 Gen.broadcasts_S1x512_S2000x512)))
        (mulf
          (layerVec (φ₁ := .bf16) (φ₂ := .bf16) Gen.dot_S2000x128_S128x512_S2000x512_1_0_0_1_n_n_wf
            (shapeCast S2000x128 x1 Gen.shapeCasts_S2000x128_S2000x128) x6 x7
            Gen.shapeCasts_S1x512_S1x512 Gen.broadcasts_S1x512_S2000x512)
          (layerVec (φ₁ := .bf16) (φ₂ := .bf16) Gen.dot_S2000x32_S32x512_S2000x512_1_0_0_1_n_n_wf x0 x4 x5
            Gen.shapeCasts_S1x512_S1x512 Gen.broadcasts_S1x512_S2000x512)) := rfl
  rw [h]
  simp only [shapeCast_self, layerVec_eq]
  rfl

/-- The edge-output payload is the residual block of the loaded blocks. -/
theorem pay13_eq (x0 : Vec Ideal S2000x32 .f32) (x4 : Vec Ideal S32x512 .f32) (x5 : Vec Ideal S1x512 .f32)
    (x10 : Vec Ideal S512x32 .f32) (x11 : Vec Ideal S1x32 .f32) :
    k0_pay1 (F := Ideal) x0 (k0_pay6 (k0_pay2 x0 x4 x5)) x10 x11 = Spec.residual2 x0 x0 x4 x5 x10 x11 := by
  have h : k0_pay1 (F := Ideal) x0 (k0_pay6 (k0_pay2 x0 x4 x5)) x10 x11
      = addf x0 (layerVec (φ₁ := .bf16) (φ₂ := .bf16) Gen.dot_S2000x512_S512x32_S2000x32_1_0_0_1_n_n_wf
          (layerVec (φ₁ := .bf16) (φ₂ := .bf16) Gen.dot_S2000x32_S32x512_S2000x512_1_0_0_1_n_n_wf x0 x4 x5
            Gen.shapeCasts_S1x512_S1x512 Gen.broadcasts_S1x512_S2000x512)
          x10 x11 Gen.shapeCasts_S1x32_S1x32 Gen.broadcasts_S1x32_S2000x32) := rfl
  rw [h, layerVec_eq, layerVec_eq]
  rfl

/-- Window 0's printed index map over the grid. -/
theorem idx0 : ∀ t : Fin cfg0.N, win0_0.index t (0 : Fin 2) = t.val ∧ win0_0.index t (1 : Fin 2) = 0 :=
  (by decide +kernel : ∀ t : Fin grid0.N, _)

/-- Window 1's printed index map over the grid. -/
theorem idx1 : ∀ t : Fin cfg0.N, win0_1.index t (0 : Fin 2) = t.val ∧ win0_1.index t (1 : Fin 2) = 0 :=
  (by decide +kernel : ∀ t : Fin grid0.N, _)

/-- Window 2's printed index map over the grid. -/
theorem idx2 : ∀ t : Fin cfg0.N, win0_2.index t (0 : Fin 2) = t.val ∧ win0_2.index t (1 : Fin 2) = 0 :=
  (by decide +kernel : ∀ t : Fin grid0.N, _)

/-- Window 3's printed index map over the grid. -/
theorem idx3 : ∀ t : Fin cfg0.N, win0_3.index t (0 : Fin 2) = t.val ∧ win0_3.index t (1 : Fin 2) = 0 :=
  (by decide +kernel : ∀ t : Fin grid0.N, _)

/-- Window 4's printed index map over the grid. -/
theorem idx4 : ∀ t : Fin cfg0.N, win0_4.index t (0 : Fin 2) = 0 ∧ win0_4.index t (1 : Fin 2) = 0 :=
  (by decide +kernel : ∀ t : Fin grid0.N, _)

/-- Window 5's printed index map over the grid. -/
theorem idx5 : ∀ t : Fin cfg0.N, win0_5.index t (0 : Fin 2) = 0 ∧ win0_5.index t (1 : Fin 2) = 0 :=
  (by decide +kernel : ∀ t : Fin grid0.N, _)

/-- Window 6's printed index map over the grid. -/
theorem idx6 : ∀ t : Fin cfg0.N, win0_6.index t (0 : Fin 2) = 0 ∧ win0_6.index t (1 : Fin 2) = 0 :=
  (by decide +kernel : ∀ t : Fin grid0.N, _)

/-- Window 7's printed index map over the grid. -/
theorem idx7 : ∀ t : Fin cfg0.N, win0_7.index t (0 : Fin 2) = 0 ∧ win0_7.index t (1 : Fin 2) = 0 :=
  (by decide +kernel : ∀ t : Fin grid0.N, _)

/-- Window 8's printed index map over the grid. -/
theorem idx8 : ∀ t : Fin cfg0.N, win0_8.index t (0 : Fin 2) = 0 ∧ win0_8.index t (1 : Fin 2) = 0 :=
  (by decide +kernel : ∀ t : Fin grid0.N, _)

/-- Window 9's printed index map over the grid. -/
theorem idx9 : ∀ t : Fin cfg0.N, win0_9.index t (0 : Fin 2) = 0 ∧ win0_9.index t (1 : Fin 2) = 0 :=
  (by decide +kernel : ∀ t : Fin grid0.N, _)

/-- Window 10's printed index map over the grid. -/
theorem idx10 : ∀ t : Fin cfg0.N, win0_10.index t (0 : Fin 2) = 0 ∧ win0_10.index t (1 : Fin 2) = 0 :=
  (by decide +kernel : ∀ t : Fin grid0.N, _)

/-- Window 11's printed index map over the grid. -/
theorem idx11 : ∀ t : Fin cfg0.N, win0_11.index t (0 : Fin 2) = 0 ∧ win0_11.index t (1 : Fin 2) = 0 :=
  (by decide +kernel : ∀ t : Fin grid0.N, _)

/-- Window 12's printed index map over the grid. -/
theorem idx12 : ∀ t : Fin cfg0.N, win0_12.index t (0 : Fin 2) = t.val ∧ win0_12.index t (1 : Fin 2) = 0 :=
  (by decide +kernel : ∀ t : Fin grid0.N, _)

/-- Window 13's printed index map over the grid. -/
theorem idx13 : ∀ t : Fin cfg0.N, win0_13.index t (0 : Fin 2) = t.val ∧ win0_13.index t (1 : Fin 2) = 0 :=
  (by decide +kernel : ∀ t : Fin grid0.N, _)

variable (V : (c : Dev nD) → (b : Ref sig .tc) → Buf (Elt Ideal) ((c : Thread nD τ).loc b))

theorem t_lt (t : Fin cfg0.N) : t.val < 160 := by
  have h : t.val < grid0.N := t.isLt
  rwa [N_0] at h

/-- Row p of block t of window 0's array is row 2000·t + p of the array. -/
theorem blk_rows0 (c : Dev nD) (t : Fin cfg0.N) (p : Fin 2000) (l : Fin 32) :
    (iblk0 V c 0 t : Vec Ideal S2000x32 .f32) (ix2 p l)
      = V c main_arg2 (ix2 (⟨2000 * t.val + p.val, by have := t_lt t; omega⟩ : Fin 320000) l) := by
  obtain ⟨e0, e1⟩ := idx0 t
  show V c main_arg2 (((cfg0.win 0).blk t).view.emb (ix2 p l)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 32 + 1 * l.val = l.val; omega

/-- Row p of block t of window 1's array is row 2000·t + p of the array. -/
theorem blk_rows1 (c : Dev nD) (t : Fin cfg0.N) (p : Fin 2000) (l : Fin 128) :
    (iblk0 V c 1 t : Vec Ideal S2000x128 .f32) (ix2 p l)
      = V c main_v6 (ix2 (⟨2000 * t.val + p.val, by have := t_lt t; omega⟩ : Fin 320000) l) := by
  obtain ⟨e0, e1⟩ := idx1 t
  show V c main_v6 (((cfg0.win 1).blk t).view.emb (ix2 p l)) = _
  refine congrArg _ (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * l.val = l.val; omega

/-- Row p of block t of window 2's array is row 2000·t + p of the array. -/
theorem blk_rows2 (c : Dev nD) (t : Fin cfg0.N) (p : Fin 2000) (l : Fin 3) :
    (iblk0 V c 2 t : Vec Ideal S2000x3 .f32) (ix2 p l)
      = V c main_v13 (ix2 (⟨2000 * t.val + p.val, by have := t_lt t; omega⟩ : Fin 320000) l) := by
  obtain ⟨e0, e1⟩ := idx2 t
  show V c main_v13 (((cfg0.win 2).blk t).view.emb (ix2 p l)) = _
  refine congrArg _ (funext fun a => Fin.ext ?_)
  match a with
  | ⟨0, _⟩ => show win0_2.index t (0 : Fin 2) * 2000 + 1 * p.val = 2000 * t.val + p.val; omega
  | ⟨1, _⟩ => show win0_2.index t (1 : Fin 2) * 3 + 1 * l.val = l.val; omega

/-- Row p of block t of window 3's array is row 2000·t + p of the array. -/
theorem blk_rows3 (c : Dev nD) (t : Fin cfg0.N) (p : Fin 2000) (l : Fin 3) :
    (iblk0 V c 3 t : Vec Ideal S2000x3 .f32) (ix2 p l)
      = V c main_v20 (ix2 (⟨2000 * t.val + p.val, by have := t_lt t; omega⟩ : Fin 320000) l) := by
  obtain ⟨e0, e1⟩ := idx3 t
  show V c main_v20 (((cfg0.win 3).blk t).view.emb (ix2 p l)) = _
  refine congrArg _ (funext fun a => Fin.ext ?_)
  match a with
  | ⟨0, _⟩ => show win0_3.index t (0 : Fin 2) * 2000 + 1 * p.val = 2000 * t.val + p.val; omega
  | ⟨1, _⟩ => show win0_3.index t (1 : Fin 2) * 3 + 1 * l.val = l.val; omega

/-- Window 4 stages its whole array at every point. -/
theorem blk_w4 (c : Dev nD) (t : Fin cfg0.N) : (iblk0 V c 4 t : Vec Ideal S32x512 .f32) = V c main_arg7 := by
  obtain ⟨e0, e1⟩ := idx4 t
  funext y
  show V c main_arg7 (((cfg0.win 4).blk t).view.emb y) = V c main_arg7 y
  refine congrArg _ (funext fun a => Fin.ext ?_)
  match a with
  | ⟨0, _⟩ => show win0_4.index t (0 : Fin 2) * 32 + 1 * (y 0).val = (y 0).val; omega
  | ⟨1, _⟩ => show win0_4.index t (1 : Fin 2) * 512 + 1 * (y 1).val = (y 1).val; omega

/-- Window 5 stages its whole array at every point. -/
theorem blk_w5 (c : Dev nD) (t : Fin cfg0.N) : (iblk0 V c 5 t : Vec Ideal S1x512 .f32) = V c main_v21 := by
  obtain ⟨e0, e1⟩ := idx5 t
  funext y
  show V c main_v21 (((cfg0.win 5).blk t).view.emb y) = V c main_v21 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- Window 6 stages its whole array at every point. -/
theorem blk_w6 (c : Dev nD) (t : Fin cfg0.N) : (iblk0 V c 6 t : Vec Ideal S128x512 .f32) = V c main_arg5 := by
  obtain ⟨e0, e1⟩ := idx6 t
  funext y
  show V c main_arg5 (((cfg0.win 6).blk t).view.emb y) = V c main_arg5 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 512 + 1 * (y 1).val = (y 1).val; omega

/-- Window 7 stages its whole array at every point. -/
theorem blk_w7 (c : Dev nD) (t : Fin cfg0.N) : (iblk0 V c 7 t : Vec Ideal S1x512 .f32) = V c main_v22 := by
  obtain ⟨e0, e1⟩ := idx7 t
  funext y
  show V c main_v22 (((cfg0.win 7).blk t).view.emb y) = V c main_v22 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 512 + 1 * (y 1).val = (y 1).val; omega

/-- Window 8 stages its whole array at every point. -/
theorem blk_w8 (c : Dev nD) (t : Fin cfg0.N) : (iblk0 V c 8 t : Vec Ideal S3x512 .f32) = V c main_arg9 := by
  obtain ⟨e0, e1⟩ := idx8 t
  funext y
  show V c main_arg9 (((cfg0.win 8).blk t).view.emb y) = V c main_arg9 y
  refine congrArg _ (funext fun a => Fin.ext ?_)
  match a with
  | ⟨0, _⟩ => show win0_8.index t (0 : Fin 2) * 3 + 1 * (y 0).val = (y 0).val; omega
  | ⟨1, _⟩ => show win0_8.index t (1 : Fin 2) * 512 + 1 * (y 1).val = (y 1).val; omega

/-- Window 9 stages its whole array at every point. -/
theorem blk_w9 (c : Dev nD) (t : Fin cfg0.N) : (iblk0 V c 9 t : Vec Ideal S1x512 .f32) = V c main_v23 := by
  obtain ⟨e0, e1⟩ := idx9 t
  funext y
  show V c main_v23 (((cfg0.win 9).blk t).view.emb y) = V c main_v23 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 512 + 1 * (y 1).val = (y 1).val; omega

/-- Window 10 stages its whole array at every point. -/
theorem blk_w10 (c : Dev nD) (t : Fin cfg0.N) : (iblk0 V c 10 t : Vec Ideal S512x32 .f32) = V c main_arg15 := by
  obtain ⟨e0, e1⟩ := idx10 t
  funext y
  show V c main_arg15 (((cfg0.win 10).blk t).view.emb y) = V c main_arg15 y
  refine congrArg _ (funext fun a => Fin.ext ?_)
  match a with
  | ⟨0, _⟩ => show win0_10.index t (0 : Fin 2) * 512 + 1 * (y 0).val = (y 0).val; omega
  | ⟨1, _⟩ => show win0_10.index t (1 : Fin 2) * 32 + 1 * (y 1).val = (y 1).val; omega

/-- Window 11 stages its whole array at every point. -/
theorem blk_w11 (c : Dev nD) (t : Fin cfg0.N) : (iblk0 V c 11 t : Vec Ideal S1x32 .f32) = V c main_v24 := by
  obtain ⟨e0, e1⟩ := idx11 t
  funext y
  show V c main_v24 (((cfg0.win 11).blk t).view.emb y) = V c main_v24 y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 32 + 1 * (y 1).val = (y 1).val; omega

/-- The edge message as one function of the arrays region 0 finds. -/
abbrev G12 (c : Dev nD) : S320000x512.Idx → EReal :=
  Spec.edgeMsg (V c main_v20) (V c main_v13) (V c main_v6) (V c main_arg2) (V c main_arg9) (V c main_v23)
    (V c main_arg5) (V c main_v22) (V c main_arg7) (V c main_v21)

/-- What point t writes back through window 12 is block t of `G12`. -/
theorem flushed12_eq (c : Dev nD) (t : Fin cfg0.N) :
    (dat0 V c).flushed 12 t = ((cfg0.win 12).blk t).view.read (Elt Ideal) (G12 V c) := by
  show (cfg0.win 12).cut (grid0.coords t) ((dat0 V c).after 12 t) = _
  rw [after0_12]
  unfold out0_12
  rw [View.canon_unit_zero hz]
  simp only [View.ld_unit_zero (S := S2000x32) hz, View.ld_unit_zero (S := S32x512) hz, View.ld_unit_zero (S := S1x512) hz, View.ld_unit_zero (S := S2000x128) hz, View.ld_unit_zero (S := S128x512) hz, View.ld_unit_zero (S := S3x512) hz, View.ld_unit_zero (S := S2000x3) hz, View.ld_unit_zero (S := S512x32) hz, View.ld_unit_zero (S := S1x32) hz]
  rw [pay12_eq]
  refine funext fun (y : S2000x512.Idx) => ?_
  obtain ⟨p, q, rfl⟩ : ∃ (p : Fin 2000) (q : Fin 512), y = ix2 p q := ⟨y 0, y 1, eq_ix2 y⟩
  obtain ⟨e0, e1⟩ := idx12 t
  have he : ((cfg0.win 12).blk t).view.emb (ix2 p q)
      = ix2 (⟨2000 * t.val + p.val, by have := t_lt t; omega⟩ : Fin 320000) q := by
    refine funext fun a => Fin.ext ?_
    match a with
    | ⟨0, _⟩ => show win0_12.index t (0 : Fin 2) * 2000 + 1 * p.val = 2000 * t.val + p.val; omega
    | ⟨1, _⟩ => show win0_12.index t (1 : Fin 2) * 512 + 1 * q.val = q.val; omega
  show Spec.edgeMsg (iblk0 V c 3 t : Vec Ideal S2000x3 .f32) (iblk0 V c 2 t : Vec Ideal S2000x3 .f32)
      (iblk0 V c 1 t : Vec Ideal S2000x128 .f32) (iblk0 V c 0 t : Vec Ideal S2000x32 .f32)
      (iblk0 V c 8 t : Vec Ideal S3x512 .f32) (iblk0 V c 9 t : Vec Ideal S1x512 .f32)
      (iblk0 V c 6 t : Vec Ideal S128x512 .f32) (iblk0 V c 7 t : Vec Ideal S1x512 .f32)
      (iblk0 V c 4 t : Vec Ideal S32x512 .f32) (iblk0 V c 5 t : Vec Ideal S1x512 .f32) (ix2 p q)
    = G12 V c (((cfg0.win 12).blk t).view.emb (ix2 p q))
  rw [he, blk_w4, blk_w5, blk_w6, blk_w7, blk_w8, blk_w9]
  exact Spec.edgeMsg_congr_row _ _ _ _ _ _ _ _ _ _ _ _ _ _ p _ q (fun i => blk_rows3 V c t p i) (fun i => blk_rows2 V c t p i)
    (fun i => blk_rows1 V c t p i) (fun i => blk_rows0 V c t p i)

/-- An index of window 12's array is in point t's block iff each coordinate is in the block's range. -/
theorem mem_blk12 (t : Fin cfg0.N) (i : S320000x512.Idx) :
    i ∈ ((cfg0.win 12).blk t).view.set ↔ ∀ a : Fin 2, win0_12.index t a * S2000x512.size a ≤ (i a).val
      ∧ (i a).val < win0_12.index t a * S2000x512.size a + S2000x512.size a := by
  show i ∈ ((View.whole main_v25_0).slice (win0_12.rect t)).set ↔ _
  rw [View.set_slice_whole, Rect.mem_set_unit]
  exact Iff.rfl

/-- Row r lies in the block of point r / 2000. -/
theorem cover12 (i : S320000x512.Idx) :
    ∃ t : Fin cfg0.N, (cfg0.win 12).flush t = true ∧ i ∈ ((cfg0.win 12).blk t).view.set := by
  have hi0 : (i 0).val < 320000 := (i 0).isLt
  have hi1 : (i 1).val < 512 := (i 1).isLt
  have hN : (i 0).val / 2000 < grid0.N := by rw [N_0]; omega
  obtain ⟨e0, e1⟩ := idx12 ⟨(i 0).val / 2000, hN⟩
  refine ⟨⟨(i 0).val / 2000, hN⟩, flush0_12 _, ?_⟩
  rw [mem_blk12]
  intro a
  match a with
  | ⟨0, _⟩ =>
    show win0_12.index ⟨(i 0).val / 2000, hN⟩ (0 : Fin 2) * 2000 ≤ (i 0).val
      ∧ (i 0).val < win0_12.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_12.index ⟨(i 0).val / 2000, hN⟩ (1 : Fin 2) * 512 ≤ (i 1).val
      ∧ (i 1).val < win0_12.index ⟨(i 0).val / 2000, hN⟩ (1 : Fin 2) * 512 + 512
    omega

/-- Window 12's array after the region is `G12` of the arrays the region finds. -/
theorem final12 (c : Dev nD) : (dat0 V c).arrAt 12 cfg0.N = G12 V c :=
  (dat0 V c).arrAt_eq_of_cover 12 (G12 V c) (fun t _ => flushed12_eq V c t) cover12

/-- The edge output as one function of the arrays region 0 finds. -/
abbrev G13 (c : Dev nD) : S320000x32.Idx → EReal :=
  Spec.residual2 (V c main_arg2) (V c main_arg2) (V c main_arg7) (V c main_v21) (V c main_arg15) (V c main_v24)

/-- What point t writes back through window 13 is block t of `G13`. -/
theorem flushed13_eq (c : Dev nD) (t : Fin cfg0.N) :
    (dat0 V c).flushed 13 t = ((cfg0.win 13).blk t).view.read (Elt Ideal) (G13 V c) := by
  show (cfg0.win 13).cut (grid0.coords t) ((dat0 V c).after 13 t) = _
  rw [after0_13]
  unfold out0_13
  rw [View.canon_unit_zero hz]
  simp only [View.ld_unit_zero (S := S2000x32) hz, View.ld_unit_zero (S := S32x512) hz, View.ld_unit_zero (S := S1x512) hz, View.ld_unit_zero (S := S2000x128) hz, View.ld_unit_zero (S := S128x512) hz, View.ld_unit_zero (S := S3x512) hz, View.ld_unit_zero (S := S2000x3) hz, View.ld_unit_zero (S := S512x32) hz, View.ld_unit_zero (S := S1x32) hz]
  rw [pay13_eq]
  refine funext fun (y : S2000x32.Idx) => ?_
  obtain ⟨p, q, rfl⟩ : ∃ (p : Fin 2000) (q : Fin 32), y = ix2 p q := ⟨y 0, y 1, eq_ix2 y⟩
  obtain ⟨e0, e1⟩ := idx13 t
  have he : ((cfg0.win 13).blk t).view.emb (ix2 p q)
      = ix2 (⟨2000 * t.val + p.val, by have := t_lt t; omega⟩ : Fin 320000) q := by
    refine funext fun a => Fin.ext ?_
    match a with
    | ⟨0, _⟩ => show win0_13.index t (0 : Fin 2) * 2000 + 1 * p.val = 2000 * t.val + p.val; omega
    | ⟨1, _⟩ => show win0_13.index t (1 : Fin 2) * 32 + 1 * q.val = q.val; omega
  show Spec.residual2 (iblk0 V c 0 t : Vec Ideal S2000x32 .f32) (iblk0 V c 0 t : Vec Ideal S2000x32 .f32)
      (iblk0 V c 4 t : Vec Ideal S32x512 .f32) (iblk0 V c 5 t : Vec Ideal S1x512 .f32)
      (iblk0 V c 10 t : Vec Ideal S512x32 .f32) (iblk0 V c 11 t : Vec Ideal S1x32 .f32) (ix2 p q)
    = G13 V c (((cfg0.win 13).blk t).view.emb (ix2 p q))
  rw [he, blk_w4, blk_w5, blk_w10, blk_w11]
  exact Spec.residual2_congr_row _ _ _ _ _ _ _ _ p _ q (blk_rows0 V c t p q) (fun i => blk_rows0 V c t p i)

/-- An index of window 13's array is in point t's block iff each coordinate is in the block's range. -/
theorem mem_blk13 (t : Fin cfg0.N) (i : S320000x32.Idx) :
    i ∈ ((cfg0.win 13).blk t).view.set ↔ ∀ a : Fin 2, win0_13.index t a * S2000x32.size a ≤ (i a).val
      ∧ (i a).val < win0_13.index t a * S2000x32.size a + S2000x32.size a := by
  show i ∈ ((View.whole main_v25_1).slice (win0_13.rect t)).set ↔ _
  rw [View.set_slice_whole, Rect.mem_set_unit]
  exact Iff.rfl

/-- Row r lies in the block of point r / 2000. -/
theorem cover13 (i : S320000x32.Idx) :
    ∃ t : Fin cfg0.N, (cfg0.win 13).flush t = true ∧ i ∈ ((cfg0.win 13).blk t).view.set := by
  have hi0 : (i 0).val < 320000 := (i 0).isLt
  have hi1 : (i 1).val < 32 := (i 1).isLt
  have hN : (i 0).val / 2000 < grid0.N := by rw [N_0]; omega
  obtain ⟨e0, e1⟩ := idx13 ⟨(i 0).val / 2000, hN⟩
  refine ⟨⟨(i 0).val / 2000, hN⟩, flush0_13 _, ?_⟩
  rw [mem_blk13]
  intro a
  match a with
  | ⟨0, _⟩ =>
    show win0_13.index ⟨(i 0).val / 2000, hN⟩ (0 : Fin 2) * 2000 ≤ (i 0).val
      ∧ (i 0).val < win0_13.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_13.index ⟨(i 0).val / 2000, hN⟩ (1 : Fin 2) * 32 ≤ (i 1).val
      ∧ (i 1).val < win0_13.index ⟨(i 0).val / 2000, hN⟩ (1 : Fin 2) * 32 + 32
    omega

/-- Window 13's array after the region is `G13` of the arrays the region finds. -/
theorem final13 (c : Dev nD) : (dat0 V c).arrAt 13 cfg0.N = G13 V c :=
  (dat0 V c).arrAt_eq_of_cover 13 (G13 V c) (fun t _ => flushed13_eq V c t) cover13

end Cert.KernelIdeal.Region0

end
-- ==== Proof.KFinal1.lean ====
/-
  Region 1, the node output.  Each grid point t reads rows 2000·t … 2000·t + 1999 of the aggregated messages k and of
  the node features, and the whole of the two weight matrices and two bias rows; its body is the residual block
  hf + CELU(CELU(k · Wn1 + bn1) · Wn2 + bn2) on those rows.  A row of the result depends only on the same row of k and
  hf, so block t of the written array is block t of the residual block of the whole arrays, and the ten blocks tile it.
-/
import proofs.«154357_j34986803593905_2_alg».proof.Proof.Gen.KernelIdeal.Frame
import proofs.«154357_j34986803593905_2_alg».proof.Proof.KLayer
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx Cert.KernelBody
open Idealize.ShloMosaic.Pipeline (Dat Cfg Window)

theorem hz : (![0, 0] : Fin 2 → Nat) = fun _ => 0 := funext fun a => by fin_cases a <;> rfl

/-- The body's one payload is the residual block of its loaded blocks (the cast of a block to its own shape is the identity). -/
theorem pay_eq (x0 : Vec Ideal S2000x512 .f32) (x1 : Vec Ideal S512x512 .f32) (x2 : Vec Ideal S1x512 .f32)
    (x3 : Vec Ideal S512x128 .f32) (x4 : Vec Ideal S1x128 .f32) (x5 : Vec Ideal S2000x128 .f32) :
    k1_pay1 (F := Ideal) x0 x1 x2 x3 x4 x5 = Spec.residual2 x5 x0 x1 x2 x3 x4 := by
  have h : k1_pay1 (F := Ideal) x0 x1 x2 x3 x4 x5
      = addf x5 (layerVec (φ₁ := .bf16) (φ₂ := .bf16) Gen.dot_S2000x512_S512x128_S2000x128_1_0_0_1_n_n_wf
          (layerVec (φ₁ := .bf16) (φ₂ := .bf16) Gen.dot_S2000x512_S512x512_S2000x512_1_0_0_1_n_n_wf
            (shapeCast S2000x512 x0 Gen.shapeCasts_S2000x512_S2000x512) x1 x2
            Gen.shapeCasts_S1x512_S1x512 Gen.broadcasts_S1x512_S2000x512)
          x3 x4 Gen.shapeCasts_S1x128_S1x128 Gen.broadcasts_S1x128_S2000x128) := rfl
  rw [h, shapeCast_self, layerVec_eq, layerVec_eq]
  rfl

/-- Window 0's printed index map over the grid. -/
theorem idx0 : ∀ t : Fin cfg1.N, win1_0.index t (0 : Fin 2) = t.val ∧ win1_0.index t (1 : Fin 2) = 0 :=
  (by decide +kernel : ∀ t : Fin grid1.N, _)

/-- Window 1's printed index map over the grid. -/
theorem idx1 : ∀ t : Fin cfg1.N, win1_1.index t (0 : Fin 2) = 0 ∧ win1_1.index t (1 : Fin 2) = 0 :=
  (by decide +kernel : ∀ t : Fin grid1.N, _)

/-- Window 2's printed index map over the grid. -/
theorem idx2 : ∀ t : Fin cfg1.N, win1_2.index t (0 : Fin 2) = 0 ∧ win1_2.index t (1 : Fin 2) = 0 :=
  (by decide +kernel : ∀ t : Fin grid1.N, _)

/-- Window 3's printed index map over the grid. -/
theorem idx3 : ∀ t : Fin cfg1.N, win1_3.index t (0 : Fin 2) = 0 ∧ win1_3.index t (1 : Fin 2) = 0 :=
  (by decide +kernel : ∀ t : Fin grid1.N, _)

/-- Window 4's printed index map over the grid. -/
theorem idx4 : ∀ t : Fin cfg1.N, win1_4.index t (0 : Fin 2) = 0 ∧ win1_4.index t (1 : Fin 2) = 0 :=
  (by decide +kernel : ∀ t : Fin grid1.N, _)

/-- Window 5's printed index map over the grid. -/
theorem idx5 : ∀ t : Fin cfg1.N, win1_5.index t (0 : Fin 2) = t.val ∧ win1_5.index t (1 : Fin 2) = 0 :=
  (by decide +kernel : ∀ t : Fin grid1.N, _)

/-- Window 6's printed index map over the grid. -/
theorem idx6 : ∀ t : Fin cfg1.N, win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

theorem t_lt (t : Fin cfg1.N) : t.val < 10 := by
  have h : t.val < grid1.N := t.isLt
  rwa [N_1] at h

/-- Row p of block t of window 0's array is row 2000·t + p of the array. -/
theorem blk_rows0 (c : Dev nD) (t : Fin cfg1.N) (p : Fin 2000) (l : Fin 512) :
    (iblk1 V c 0 t : Vec Ideal S2000x512 .f32) (ix2 p l)
      = V c main_v28 (ix2 (⟨2000 * t.val + p.val, by have := t_lt t; omega⟩ : Fin 20000) l) := by
  obtain ⟨e0, e1⟩ := idx0 t
  show V c main_v28 (((cfg1.win 0).blk t).view.emb (ix2 p l)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 512 + 1 * l.val = l.val; omega

/-- Window 1 stages its whole array at every point. -/
theorem blk_w1 (c : Dev nD) (t : Fin cfg1.N) : (iblk1 V c 1 t : Vec Ideal S512x512 .f32) = V c main_arg11 := by
  obtain ⟨e0, e1⟩ := idx1 t
  funext y
  show V c main_arg11 (((cfg1.win 1).blk t).view.emb y) = V c main_arg11 y
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 512 + 1 * (y 1).val = (y 1).val; omega

/-- Window 2 stages its whole array at every point. -/
theorem blk_w2 (c : Dev nD) (t : Fin cfg1.N) : (iblk1 V c 2 t : Vec Ideal S1x512 .f32) = V c main_v29 := by
  obtain ⟨e0, e1⟩ := idx2 t
  funext y
  show V c main_v29 (((cfg1.win 2).blk t).view.emb y) = V c main_v29 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- Window 3 stages its whole array at every point. -/
theorem blk_w3 (c : Dev nD) (t : Fin cfg1.N) : (iblk1 V c 3 t : Vec Ideal S512x128 .f32) = V c main_arg13 := by
  obtain ⟨e0, e1⟩ := idx3 t
  funext y
  show V c main_arg13 (((cfg1.win 3).blk t).view.emb y) = V c main_arg13 y
  refine congrArg _ (funext fun a => Fin.ext ?_)
  match a with
  | ⟨0, _⟩ => show win1_3.index t (0 : Fin 2) * 512 + 1 * (y 0).val = (y 0).val; omega
  | ⟨1, _⟩ => show win1_3.index t (1 : Fin 2) * 128 + 1 * (y 1).val = (y 1).val; omega

/-- Window 4 stages its whole array at every point. -/
theorem blk_w4 (c : Dev nD) (t : Fin cfg1.N) : (iblk1 V c 4 t : Vec Ideal S1x128 .f32) = V c main_v30 := by
  obtain ⟨e0, e1⟩ := idx4 t
  funext y
  show V c main_v30 (((cfg1.win 4).blk t).view.emb y) = V c main_v30 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Row p of block t of window 5's array is row 2000·t + p of the array. -/
theorem blk_rows5 (c : Dev nD) (t : Fin cfg1.N) (p : Fin 2000) (l : Fin 128) :
    (iblk1 V c 5 t : Vec Ideal S2000x128 .f32) (ix2 p l)
      = V c main_arg0 (ix2 (⟨2000 * t.val + p.val, by have := t_lt t; omega⟩ : Fin 20000) l) := by
  obtain ⟨e0, e1⟩ := idx5 t
  show V c main_arg0 (((cfg1.win 5).blk t).view.emb (ix2 p l)) = _
  refine congrArg _ (funext fun a => Fin.ext ?_)
  match a with
  | ⟨0, _⟩ => show win1_5.index t (0 : Fin 2) * 2000 + 1 * p.val = 2000 * t.val + p.val; omega
  | ⟨1, _⟩ => show win1_5.index t (1 : Fin 2) * 128 + 1 * l.val = l.val; omega

/-- The node output as one function of the arrays region 1 finds. -/
abbrev G6 (c : Dev nD) : S20000x128.Idx → EReal :=
  Spec.residual2 (V c main_arg0) (V c main_v28) (V c main_arg11) (V c main_v29) (V c main_arg13) (V c main_v30)

/-- What point t writes back through window 6 is block t of `G6`. -/
theorem flushed6_eq (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  unfold out1_6
  rw [View.canon_unit_zero hz]
  simp only [View.ld_unit_zero (S := S2000x512) hz, View.ld_unit_zero (S := S512x512) hz, View.ld_unit_zero (S := S1x512) hz, View.ld_unit_zero (S := S512x128) hz, View.ld_unit_zero (S := S1x128) hz, View.ld_unit_zero (S := S2000x128) hz]
  rw [pay_eq]
  refine funext fun (y : S2000x128.Idx) => ?_
  obtain ⟨p, q, rfl⟩ : ∃ (p : Fin 2000) (q : Fin 128), y = ix2 p q := ⟨y 0, y 1, eq_ix2 y⟩
  obtain ⟨e0, e1⟩ := idx6 t
  have he : ((cfg1.win 6).blk t).view.emb (ix2 p q)
      = ix2 (⟨2000 * t.val + p.val, by have := t_lt t; omega⟩ : Fin 20000) q := by
    refine funext fun a => Fin.ext ?_
    match a with
    | ⟨0, _⟩ => show win1_6.index t (0 : Fin 2) * 2000 + 1 * p.val = 2000 * t.val + p.val; omega
    | ⟨1, _⟩ => show win1_6.index t (1 : Fin 2) * 128 + 1 * q.val = q.val; omega
  show Spec.residual2 (iblk1 V c 5 t : Vec Ideal S2000x128 .f32) (iblk1 V c 0 t : Vec Ideal S2000x512 .f32)
      (iblk1 V c 1 t : Vec Ideal S512x512 .f32) (iblk1 V c 2 t : Vec Ideal S1x512 .f32)
      (iblk1 V c 3 t : Vec Ideal S512x128 .f32) (iblk1 V c 4 t : Vec Ideal S1x128 .f32) (ix2 p q)
    = G6 V c (((cfg1.win 6).blk t).view.emb (ix2 p q))
  rw [he, blk_w1, blk_w2, blk_w3, blk_w4]
  exact Spec.residual2_congr_row _ _ _ _ _ _ _ _ p _ q (blk_rows5 V c t p q) (fun i => blk_rows0 V c t p i)

/-- An index of window 6's array is in point t's block iff each coordinate is in the block's range. -/
theorem mem_blk6 (t : Fin cfg1.N) (i : S20000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v31).slice (win1_6.rect t)).set ↔ _
  rw [View.set_slice_whole, Rect.mem_set_unit]
  exact Iff.rfl

/-- Row r lies in the block of point r / 2000. -/
theorem cover6 (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  have hN : (i 0).val / 2000 < grid1.N := by rw [N_1]; omega
  obtain ⟨e0, e1⟩ := idx6 ⟨(i 0).val / 2000, hN⟩
  refine ⟨⟨(i 0).val / 2000, hN⟩, flush1_6 _, ?_⟩
  rw [mem_blk6]
  intro a
  match a with
  | ⟨0, _⟩ =>
    show win1_6.index ⟨(i 0).val / 2000, hN⟩ (0 : Fin 2) * 2000 ≤ (i 0).val
      ∧ (i 0).val < win1_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hN⟩ (1 : Fin 2) * 128 ≤ (i 1).val
      ∧ (i 1).val < win1_6.index ⟨(i 0).val / 2000, hN⟩ (1 : Fin 2) * 128 + 128
    omega

/-- Window 6's array after the region is `G6` of the arrays the region finds. -/
theorem final6 (c : Dev nD) : (dat1 V c).arrAt 6 cfg1.N = G6 V c :=
  (dat1 V c).arrAt_eq_of_cover 6 (G6 V c) (fun t _ => flushed6_eq V c t) cover6

end Cert.KernelIdeal.Region1

end
-- ==== Proof.KFinal2.lean ====
/-
  Region 2, the coordinate output.  Each grid point t reads rows 2000·t … 2000·t + 1999 of the coordinate
  features and the whole of the two weight matrices and two bias rows; its body is the residual block
  cf + CELU(CELU(cf · Wc + bc) · Wco + bco) on those rows.  A row of the block's result depends only on the same row
  of the input, so block t of the written array is block t of the residual block of the whole arrays, and the ten
  blocks tile the array.
-/
import proofs.«154357_j34986803593905_2_alg».proof.Proof.Gen.KernelIdeal.Frame
import proofs.«154357_j34986803593905_2_alg».proof.Proof.KLayer
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx Cert.KernelBody
open Idealize.ShloMosaic.Pipeline (Dat Cfg Window)

theorem hz : (![0, 0] : Fin 2 → Nat) = fun _ => 0 := funext fun a => by fin_cases a <;> rfl

/-- The body's one payload is the residual block of its loaded blocks. -/
theorem pay_eq (x0 : Vec Ideal S2000x3 .f32) (x1 : Vec Ideal S3x512 .f32) (x2 : Vec Ideal S1x512 .f32)
    (x3 : Vec Ideal S512x3 .f32) (x4 : Vec Ideal S1x3 .f32) :
    k2_pay1 (F := Ideal) x0 x1 x2 x3 x4 x0 = Spec.residual2 x0 x0 x1 x2 x3 x4 := by
  have h : k2_pay1 (F := Ideal) x0 x1 x2 x3 x4 x0
      = addf x0 (layerVec (φ₁ := .bf16) (φ₂ := .bf16) dot_S2000x512_S512x3_S2000x3_1_0_0_1_n_n_wf
          (layerVec (φ₁ := .bf16) (φ₂ := .bf16) dot_S2000x3_S3x512_S2000x512_1_0_0_1_n_n_wf x0 x1 x2
            shapeCasts_S1x512_S1x512 broadcasts_S1x512_S2000x512)
          x3 x4 shapeCasts_S1x3_S1x3 broadcasts_S1x3_S2000x3) := rfl
  rw [h, layerVec_eq, layerVec_eq]
  rfl

/-- The printed index maps over the grid: the row-blocked windows sit at block row t, the others at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

theorem t_lt (t : Fin cfg2.N) : t.val < 10 := by
  have h : t.val < grid2.N := t.isLt
  rwa [N_2] at h

/-- Row p of block t of the coordinate features is row 2000·t + p of the array. -/
theorem blk_rows (c : Dev nD) (t : Fin cfg2.N) (p : Fin 2000) (l : Fin 3) :
    (iblk2 V c 0 t : Vec Ideal S2000x3 .f32) (ix2 p l)
      = V c main_arg1 (ix2 (⟨2000 * t.val + p.val, by have := t_lt t; omega⟩ : Fin 20000) l) := by
  obtain ⟨e0, e1, -⟩ := idx_facts t
  show V c main_arg1 (((cfg2.win 0).blk t).view.emb (ix2 p l)) = _
  refine congrArg _ (funext fun a => Fin.ext ?_)
  match a with
  | ⟨0, _⟩ => show win2_0.index t (0 : Fin 2) * 2000 + 1 * p.val = 2000 * t.val + p.val; omega
  | ⟨1, _⟩ => show win2_0.index t (1 : Fin 2) * 3 + 1 * l.val = l.val; omega

theorem blk_w1 (c : Dev nD) (t : Fin cfg2.N) : (iblk2 V c 1 t : Vec Ideal S3x512 .f32) = V c main_arg9 := by
  obtain ⟨-, -, e0, e1, -⟩ := idx_facts t
  funext y
  show V c main_arg9 (((cfg2.win 1).blk t).view.emb y) = V c main_arg9 y
  refine congrArg _ (funext fun a => Fin.ext ?_)
  match a with
  | ⟨0, _⟩ => show win2_1.index t (0 : Fin 2) * 3 + 1 * (y 0).val = (y 0).val; omega
  | ⟨1, _⟩ => show win2_1.index t (1 : Fin 2) * 512 + 1 * (y 1).val = (y 1).val; omega

theorem blk_w2 (c : Dev nD) (t : Fin cfg2.N) : (iblk2 V c 2 t : Vec Ideal S1x512 .f32) = V c main_v32 := by
  obtain ⟨-, -, -, -, e0, e1, -⟩ := idx_facts t
  funext y
  show V c main_v32 (((cfg2.win 2).blk t).view.emb y) = V c main_v32 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 512 + 1 * (y 1).val = (y 1).val; omega

theorem blk_w3 (c : Dev nD) (t : Fin cfg2.N) : (iblk2 V c 3 t : Vec Ideal S512x3 .f32) = V c main_arg17 := by
  obtain ⟨-, -, -, -, -, -, e0, e1, -⟩ := idx_facts t
  funext y
  show V c main_arg17 (((cfg2.win 3).blk t).view.emb y) = V c main_arg17 y
  refine congrArg _ (funext fun a => Fin.ext ?_)
  match a with
  | ⟨0, _⟩ => show win2_3.index t (0 : Fin 2) * 512 + 1 * (y 0).val = (y 0).val; omega
  | ⟨1, _⟩ => show win2_3.index t (1 : Fin 2) * 3 + 1 * (y 1).val = (y 1).val; omega

theorem blk_w4 (c : Dev nD) (t : Fin cfg2.N) : (iblk2 V c 4 t : Vec Ideal S1x3 .f32) = V c main_v33 := by
  obtain ⟨-, -, -, -, -, -, -, -, e0, e1, -⟩ := idx_facts t
  funext y
  show V c main_v33 (((cfg2.win 4).blk t).view.emb y) = V c main_v33 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 3 + 1 * (y 1).val = (y 1).val; omega

/-- The coordinate output as one function of the arrays region 2 finds. -/
abbrev G (c : Dev nD) : S20000x3.Idx → EReal :=
  Spec.residual2 (V c main_arg1) (V c main_arg1) (V c main_arg9) (V c main_v32) (V c main_arg17) (V c main_v33)

/-- What point t writes back is block t of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x3) hz, View.ld_unit_zero (S := S3x512) hz, View.ld_unit_zero (S := S1x512) hz,
    View.ld_unit_zero (S := S512x3) hz, View.ld_unit_zero (S := S1x3) hz]
  rw [pay_eq]
  refine funext fun (y : S2000x3.Idx) => ?_
  obtain ⟨p, q, rfl⟩ : ∃ (p : Fin 2000) (q : Fin 3), y = ix2 p q := ⟨y 0, y 1, eq_ix2 y⟩
  obtain ⟨-, -, -, -, -, -, -, -, -, -, e0, e1⟩ := idx_facts t
  have he : ((cfg2.win 5).blk t).view.emb (ix2 p q)
      = ix2 (⟨2000 * t.val + p.val, by have := t_lt t; omega⟩ : Fin 20000) q := by
    refine funext fun a => Fin.ext ?_
    match a with
    | ⟨0, _⟩ => show win2_5.index t (0 : Fin 2) * 2000 + 1 * p.val = 2000 * t.val + p.val; omega
    | ⟨1, _⟩ => show win2_5.index t (1 : Fin 2) * 3 + 1 * q.val = q.val; omega
  show Spec.residual2 (iblk2 V c 0 t : Vec Ideal S2000x3 .f32) (iblk2 V c 0 t : Vec Ideal S2000x3 .f32)
      (iblk2 V c 1 t : Vec Ideal S3x512 .f32) (iblk2 V c 2 t : Vec Ideal S1x512 .f32)
      (iblk2 V c 3 t : Vec Ideal S512x3 .f32) (iblk2 V c 4 t : Vec Ideal S1x3 .f32) (ix2 p q)
    = G V c (((cfg2.win 5).blk t).view.emb (ix2 p q))
  rw [he, blk_w1, blk_w2, blk_w3, blk_w4]
  exact Spec.residual2_congr_row _ _ _ _ _ _ _ _ p _ q (blk_rows V c t p q) (fun i => blk_rows V c t p i)

/-- An index of the array is in point t's block iff each coordinate is in the block's range on its axis. -/
theorem mem_blk (t : Fin cfg2.N) (i : S20000x3.Idx) :
    i ∈ ((cfg2.win 5).blk t).view.set ↔ ∀ a : Fin 2, win2_5.index t a * S2000x3.size a ≤ (i a).val
      ∧ (i a).val < win2_5.index t a * S2000x3.size a + S2000x3.size a := by
  show i ∈ ((View.whole main_v34).slice (win2_5.rect t)).set ↔ _
  rw [View.set_slice_whole, Rect.mem_set_unit]
  exact Iff.rfl

/-- Row r lies in the block of point r / 2000. -/
theorem cover (i : S20000x3.Idx) :
    ∃ t : Fin cfg2.N, (cfg2.win 5).flush t = true ∧ i ∈ ((cfg2.win 5).blk t).view.set := by
  have hi0 : (i 0).val < 20000 := (i 0).isLt
  have hi1 : (i 1).val < 3 := (i 1).isLt
  have hN : (i 0).val / 2000 < grid2.N := by rw [N_2]; omega
  obtain ⟨-, -, -, -, -, -, -, -, -, -, e0, e1⟩ := idx_facts ⟨(i 0).val / 2000, hN⟩
  refine ⟨⟨(i 0).val / 2000, hN⟩, flush2_5 _, ?_⟩
  rw [mem_blk]
  intro a
  match a with
  | ⟨0, _⟩ =>
    show win2_5.index ⟨(i 0).val / 2000, hN⟩ (0 : Fin 2) * 2000 ≤ (i 0).val
      ∧ (i 0).val < win2_5.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, hN⟩ (1 : Fin 2) * 3 ≤ (i 1).val
      ∧ (i 1).val < win2_5.index ⟨(i 0).val / 2000, hN⟩ (1 : Fin 2) * 3 + 3
    omega

/-- Region 2's output array after the region is `G` of the arrays it finds. -/
theorem final (c : Dev nD) : (dat2 V c).arrAt 5 cfg2.N = G V c :=
  (dat2 V c).arrAt_eq_of_cover 5 (G V c) (fun t _ => flushed_eq V c t) cover

end Cert.KernelIdeal.Region2

end
-- ==== Proof.LibGatherRows.lean ====
/-
  The host's row gather read at an index.  Indexing the rows of an [N, C] array by an integer column of E row
  numbers (what `x[idx]` of a matrix at a vector of indices lowers to: offset axis 1, collapsed axis 0, start index
  map [0], the index vector on axis 1 of the [E, 1] start indices, slices of one row) gives at (r, j) the entry j of
  row `rowSel idx r` of the array: the r-th start index read as a signed integer and clamped into [0, N - 1].
  The row chosen does not depend on the width C, so gathering rows commutes with any map that acts row by row.
-/
import Idealize.ShloMosaic.Lib.Pipeline.Value
import Idealize.ShloMosaic.Lib.ValueIdx

noncomputable section

namespace Cert.HostGather

open Idealize.ShloMosaic Idealize.ShloMosaic.ValueIdx

variable {α : Type}

/-- The row of an N-row array that start index number `r` selects: the index word read signed, clamped to the last row. -/
def rowSel {N E w : ℕ} (hN : 0 < N) (idx : IVec ⟨2, ![E, 1]⟩ w) (r : Fin E) : Fin N :=
  ⟨min (idx (ix2 r (0 : Fin 1))).toInt.toNat (N - 1), by omega⟩

/-- The row gather at `(r, j)` is the array at row `rowSel idx r`, column `j`.  `wf` is the record's
    well-formedness, which a program states. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (r : Fin E) (j : Fin C) :
    Host.gather (⟨[1], [0], [], [], [0], 1, ![1, C], wf⟩ : GatherDims ⟨2, ![N, C]⟩ ⟨2, ![E, 1]⟩ ⟨2, ![E, C]⟩) x idx (ix2 r j)
      = x (ix2 (rowSel hN idx r) j) := by
  unfold Host.gather
  congr 1
  funext a
  refine Fin.ext ?_
  let d : GatherDims ⟨2, ![N, C]⟩ ⟨2, ![E, 1]⟩ ⟨2, ![E, C]⟩ := ⟨[1], [0], [], [], [0], 1, ![1, C], wf⟩
  have hb : ∀ a, d.batchCoord (ix2 r j) a = 0 := fun a => GatherDims.batchCoord_eq_zero _ _ _ List.not_mem_nil
  have ho0 : d.offCoord (ix2 r j) (0 : Fin 2) = 0 :=
    GatherDims.offCoord_eq_zero _ _ _ (fun h => ((GatherDims.mem_sKept _ _).mp h).1 (List.mem_singleton.mpr rfl))
  have hs0 : d.start (ix2 r j) idx (0 : Fin 2) = min (idx (ix2 r (0 : Fin 1))).toInt.toNat (N - 1) := by
    unfold GatherDims.start
    rw [dif_pos (show (0 : Fin 2) ∈ d.startIndexMap from List.mem_singleton.mpr rfl)]
    have hsi : d.siIdx (ix2 r j) ⟨List.idxOf (0 : Fin 2) d.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have hs1 : d.start (ix2 r j) idx (1 : Fin 2) = 0 := by
    unfold GatherDims.start
    rw [dif_neg (show (1 : Fin 2) ∉ d.startIndexMap from
      fun h => Nat.one_ne_zero (congrArg Fin.val (List.mem_singleton.mp h)))]
  have hk1 : (1 : Fin 2) ∈ d.sKept :=
    (GatherDims.mem_sKept _ _).mpr ⟨fun h => Nat.one_ne_zero (congrArg Fin.val (List.mem_singleton.mp h)), List.not_mem_nil⟩
  have ho1 : d.offCoord (ix2 r j) (1 : Fin 2) = j.val := by
    unfold GatherDims.offCoord
    rw [dif_pos hk1]
    rfl
  match a with
  | ⟨0, _⟩ =>
    show d.start (ix2 r j) idx (0 : Fin 2) + d.batchCoord (ix2 r j) (0 : Fin 2) + d.offCoord (ix2 r j) (0 : Fin 2)
      = min (idx (ix2 r (0 : Fin 1))).toInt.toNat (N - 1)
    rw [hs0, hb, ho0]
    rfl
  | ⟨1, _⟩ =>
    show d.start (ix2 r j) idx (1 : Fin 2) + d.batchCoord (ix2 r j) (1 : Fin 2) + d.offCoord (ix2 r j) (1 : Fin 2) = j.val
    rw [hs1, hb, ho1]; omega

end Cert.HostGather

end
-- ==== Proof.EdgeSpec.lean ====
/-
  The host pieces both programs share, stated once over plain shapes, and the three results as functions of the
  arguments.

  * Gathering rows of a matrix by a column of row numbers, read through `rowSel`: row r of the result is the selected
    row of the operand.  A dense layer acts row by row, so a layer of gathered rows is the gathered rows of the layer:
    expanding the narrow rows after the gather gives what gathering the expanded rows gives.
  * The column of row numbers jnp indexing builds from an integer vector: a negative entry is shifted up by the number
    of rows, and the vector is laid out as an [E, 1] column.
  * The aggregation: the host's accumulating row scatter of the messages into a zero array by the destination column.
    Both programs aggregate with this same operation, so equal messages give equal aggregates.
  * The node output, the coordinate output and the edge output.
-/
import proofs.«154357_j34986803593905_2_alg».proof.Proof.Spec
import proofs.«154357_j34986803593905_2_alg».proof.Proof.LibGatherRows

noncomputable section

namespace Cert.Spec

open Idealize.ShloMosaic Idealize.ShloMosaic.ValueIdx Cert.HostGather

/-- The rows of `x` selected by the column `idx`. -/
def gatherRows {N E C w : ℕ} (hN : 0 < N) (x : (⟨2, ![N, C]⟩ : Shape).Idx → EReal) (idx : IVec ⟨2, ![E, 1]⟩ w) :
    (⟨2, ![E, C]⟩ : Shape).Idx → EReal :=
  fun j => x (ix2 (rowSel hN idx (j 0)) (j 1))

/-- The host's row gather is `gatherRows`. -/
theorem gather_eq_gatherRows {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) :
    Host.gather (⟨[1], [0], [], [], [0], 1, ![1, C], wf⟩ : GatherDims ⟨2, ![N, C]⟩ ⟨2, ![E, 1]⟩ ⟨2, ![E, C]⟩) x idx
      = gatherRows hN x idx := by
  funext j
  obtain ⟨r, c, rfl⟩ : ∃ (r : Fin E) (c : Fin C), j = ix2 r c := ⟨j 0, j 1, eq_ix2 j⟩
  exact gather_rows_apply hN wf x idx r c

/-- A layer of gathered rows is the gathered rows of the layer. -/
theorem layerM_gatherRows {N E k n w : ℕ} (hN : 0 < N) (A : (⟨2, ![N, k]⟩ : Shape).Idx → EReal)
    (W : (⟨2, ![k, n]⟩ : Shape).Idx → EReal) (b : (⟨2, ![1, n]⟩ : Shape).Idx → EReal) (idx : IVec ⟨2, ![E, 1]⟩ w) :
    gatherRows hN (layerM A W b) idx = layerM (gatherRows hN A idx) W b := by
  funext j
  obtain ⟨r, c, rfl⟩ : ∃ (r : Fin E) (c : Fin n), j = ix2 r c := ⟨j 0, j 1, eq_ix2 j⟩
  show layer A W b (rowSel hN idx r) c = layer (gatherRows hN A idx) W b r c
  exact layer_congr_row A (gatherRows hN A idx) W b (rowSel hN idx r) r (fun i => rfl) c

/-- The column of row numbers built from an integer vector: entries below zero are shifted up by `n`. -/
def idxCol {E : ℕ} (hb0 : (⟨0, ![]⟩ : Shape).BroadcastsInDim ⟨1, ![E]⟩ ![])
    (hb1 : (⟨1, ![E]⟩ : Shape).BroadcastsInDim ⟨2, ![E, 1]⟩ ![0]) (n : BitVec 32) (x : IVec ⟨1, ![E]⟩ 32) :
    IVec ⟨2, ![E, 1]⟩ 32 :=
  broadcastInDim ⟨2, ![E, 1]⟩ ![0] hb1
    (select (cmpi .slt x (broadcastInDim ⟨1, ![E]⟩ ![] hb0 (constantI ⟨0, ![]⟩ 32 0#32)))
      (addi x (broadcastInDim ⟨1, ![E]⟩ ![] hb0 (constantI ⟨0, ![]⟩ 32 n))) x)

/-- The aggregation of the messages `X` over the destination vector `dst`: the host's accumulating row scatter into
    the zero array. -/
def aggregate {N E H : ℕ} (wf : ScatterDims.WF ⟨2, ![N, H]⟩ ⟨2, ![E, 1]⟩ ⟨2, ![E, H]⟩ [1] [0] [0] 1)
    (hz : (⟨0, ![]⟩ : Shape).BroadcastsInDim ⟨2, ![N, H]⟩ ![])
    (hb1 : (⟨1, ![E]⟩ : Shape).BroadcastsInDim ⟨2, ![E, 1]⟩ ![0]) (dst : IVec ⟨1, ![E]⟩ 32)
    (X : (⟨2, ![E, H]⟩ : Shape).Idx → EReal) : (⟨2, ![N, H]⟩ : Shape).Idx → EReal :=
  Host.scatterAdd (F := Ideal) (φ := .f32) (⟨[1], [0], [0], 1, wf⟩ : ScatterDims ⟨2, ![N, H]⟩ ⟨2, ![E, 1]⟩ ⟨2, ![E, H]⟩)
    (broadcastInDim ⟨2, ![N, H]⟩ ![] hz (constant (F := Ideal) ⟨0, ![]⟩ .f32 0x00000000#32))
    (broadcastInDim ⟨2, ![E, 1]⟩ ![0] hb1 dst) X

section Results

variable {N E kn ke kc H : ℕ} (hN : 0 < N)
  (hb0 : (⟨0, ![]⟩ : Shape).BroadcastsInDim ⟨1, ![E]⟩ ![])
  (hb1 : (⟨1, ![E]⟩ : Shape).BroadcastsInDim ⟨2, ![E, 1]⟩ ![0]) (nrows : BitVec 32)

/-- The edge messages from the raw arrays: the coordinate rows of the destination and of the source and the node row
    of the source, each gathered and then expanded, against the expanded edge row. -/
def msg (hf : (⟨2, ![N, kn]⟩ : Shape).Idx → EReal) (cf : (⟨2, ![N, kc]⟩ : Shape).Idx → EReal)
    (ef : (⟨2, ![E, ke]⟩ : Shape).Idx → EReal) (src dst : IVec ⟨1, ![E]⟩ 32)
    (Wn : (⟨2, ![kn, H]⟩ : Shape).Idx → EReal) (bn : (⟨1, ![H]⟩ : Shape).Idx → EReal)
    (We : (⟨2, ![ke, H]⟩ : Shape).Idx → EReal) (be : (⟨1, ![H]⟩ : Shape).Idx → EReal)
    (Wc : (⟨2, ![kc, H]⟩ : Shape).Idx → EReal) (bc : (⟨1, ![H]⟩ : Shape).Idx → EReal) :
    (⟨2, ![E, H]⟩ : Shape).Idx → EReal :=
  edgeMsg (gatherRows hN cf (idxCol hb0 hb1 nrows dst)) (gatherRows hN cf (idxCol hb0 hb1 nrows src))
    (gatherRows hN hf (idxCol hb0 hb1 nrows src)) ef Wc (rowOf bc) Wn (rowOf bn) We (rowOf be)

/-- The node output: the node features plus two dense layers with CELU of the aggregated messages. -/
def hOut (wfS : ScatterDims.WF ⟨2, ![N, H]⟩ ⟨2, ![E, 1]⟩ ⟨2, ![E, H]⟩ [1] [0] [0] 1)
    (hz : (⟨0, ![]⟩ : Shape).BroadcastsInDim ⟨2, ![N, H]⟩ ![])
    (hf : (⟨2, ![N, kn]⟩ : Shape).Idx → EReal) (cf : (⟨2, ![N, kc]⟩ : Shape).Idx → EReal)
    (ef : (⟨2, ![E, ke]⟩ : Shape).Idx → EReal) (src dst : IVec ⟨1, ![E]⟩ 32)
    (Wn : (⟨2, ![kn, H]⟩ : Shape).Idx → EReal) (bn : (⟨1, ![H]⟩ : Shape).Idx → EReal)
    (We : (⟨2, ![ke, H]⟩ : Shape).Idx → EReal) (be : (⟨1, ![H]⟩ : Shape).Idx → EReal)
    (Wc : (⟨2, ![kc, H]⟩ : Shape).Idx → EReal) (bc : (⟨1, ![H]⟩ : Shape).Idx → EReal)
    (Wn1 : (⟨2, ![H, H]⟩ : Shape).Idx → EReal) (bn1 : (⟨1, ![H]⟩ : Shape).Idx → EReal)
    (Wn2 : (⟨2, ![H, kn]⟩ : Shape).Idx → EReal) (bn2 : (⟨1, ![kn]⟩ : Shape).Idx → EReal) :
    (⟨2, ![N, kn]⟩ : Shape).Idx → EReal :=
  residual2 hf (aggregate wfS hz hb1 dst (msg hN hb0 hb1 nrows hf cf ef src dst Wn bn We be Wc bc))
    Wn1 (rowOf bn1) Wn2 (rowOf bn2)

/-- A residual output of one array: the array plus two dense layers with CELU of itself. -/
def selfOut {M k h : ℕ} (x : (⟨2, ![M, k]⟩ : Shape).Idx → EReal)
    (W1 : (⟨2, ![k, h]⟩ : Shape).Idx → EReal) (b1 : (⟨1, ![h]⟩ : Shape).Idx → EReal)
    (W2 : (⟨2, ![h, k]⟩ : Shape).Idx → EReal) (b2 : (⟨1, ![k]⟩ : Shape).Idx → EReal) :
    (⟨2, ![M, k]⟩ : Shape).Idx → EReal :=
  residual2 x x W1 (rowOf b1) W2 (rowOf b2)

end Results

end Cert.Spec

end
-- ==== Proof.KValue.lean ====
/-
  The idealized kernel's three results as functions of the argument arrays.

  The fold through @main is walked from the launch memory upward.  No host operation and no region writes an
  argument, so each argument buffer holds its launch contents wherever a region finds it.  Region 0 finds the edge
  features, the three gathered arrays (rows of the node features by the source column, rows of the coordinates by the
  source and by the destination column) and the weights, each bias a vector laid out as a row; it leaves the edge
  messages and the edge output.  The second host stretch aggregates the messages by the destination vector.  Region 1
  finds that aggregate and the node features and leaves the node output; region 2 finds the coordinates and leaves
  the coordinate output.
-/
import proofs.«154357_j34986803593905_2_alg».proof.Proof.KRun
import proofs.«154357_j34986803593905_2_alg».proof.Proof.KFinal0
import proofs.«154357_j34986803593905_2_alg».proof.Proof.KFinal1
import proofs.«154357_j34986803593905_2_alg».proof.Proof.KFinal2
import proofs.«154357_j34986803593905_2_alg».proof.Proof.EdgeSpec
import Idealize.ShloMosaic.Lib.StableHlo.Run

set_option maxRecDepth 16384

noncomputable section

namespace Cert.KernelIdeal.ValueK

open Cert.KernelIdeal Cert.KernelIdeal.Gen
open Idealize.ShloMosaic Idealize.ShloMosaic.TcCoe Idealize.SL.Sem Idealize.ShloMosaic.ValueIdx Idealize.ShloMosaic.StableHlo
open Cert.KernelBody

/-- No operation of a host stretch writes the given buffer. -/
macro "nw_ops" ops:ident : tactic => `(tactic| (
  refine List.forall_iff_forall_mem.mp ?_
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- A vector cast to a row [1, b] is the vector as a row. -/
theorem shapeCast_row_eq {b : ℕ} (x : (⟨1, ![b]⟩ : Shape).Idx → EReal) (h : (⟨1, ![b]⟩ : Shape).ShapeCasts ⟨2, ![1, b]⟩) :
    shapeCast ⟨2, ![1, b]⟩ x h = Spec.rowOf x := by
  funext j
  obtain ⟨z, k, rfl⟩ : ∃ (z : Fin 1) (k : Fin b), j = ix2 z k := ⟨j 0, j 1, eq_ix2 j⟩
  obtain rfl : z = 0 := Subsingleton.elim _ _
  exact shapeCast_row_apply x h k

variable (m : (ℓ : Loc nD τ sig) → Buf (Elt Ideal) ℓ) (ρ : Dev nD → PrngReg) (c : Dev nD)

/-! ## Buffers no segment writes, read at each boundary -/

theorem W1_of (b : Ref sig .tc)
    (h0 : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ h0).trans rfl

theorem W2_of (b : Ref sig .tc)
    (h0 : ∀ op ∈ (hostOps0 : List (HloOp τ sig (Elt Ideal))), Proc.devRef .tc b ∉ op.writes)
    (hs0 : ∀ w, Pipeline.arrRef spec0 w ≠ b) :
    W2 m ρ c (Proc.devRef .tc b) = m ((c : Thread nD τ).loc b) :=
  (W2_of_ne m ρ c b hs0).trans (W1_of m ρ c b h0)

theorem W3_of (b : Ref sig .tc) (h2 : W2 m ρ c (Proc.devRef .tc b) = m ((c : Thread nD τ).loc b))
    (h1 : ∀ op ∈ (hostOps1 : List (HloOp τ sig (Elt Ideal))), Proc.devRef .tc b ∉ op.writes) :
    W3 m ρ c (Proc.devRef .tc b) = m ((c : Thread nD τ).loc b) :=
  (StableHlo.after_of_forall_not_mem (b := Proc.devRef .tc b) _ _ h1).trans h2

theorem W4_of (b : Ref sig .tc) (h3 : W3 m ρ c (Proc.devRef .tc b) = m ((c : Thread nD τ).loc b))
    (hs1 : ∀ w, Pipeline.arrRef spec1 w ≠ b) :
    W4 m ρ c (Proc.devRef .tc b) = m ((c : Thread nD τ).loc b) :=
  (W4_of_ne m ρ c b hs1).trans h3

theorem W5_of (b : Ref sig .tc) (h4 : W4 m ρ c (Proc.devRef .tc b) = m ((c : Thread nD τ).loc b))
    (h2 : ∀ op ∈ (hostOps2 : List (HloOp τ sig (Elt Ideal))), Proc.devRef .tc b ∉ op.writes) :
    W5 m ρ c (Proc.devRef .tc b) = m ((c : Thread nD τ).loc b) :=
  (StableHlo.after_of_forall_not_mem (b := Proc.devRef .tc b) _ _ h2).trans h4

/-- The coordinate weights pass through region 0 as an input window's array. -/
theorem W2_arg9 : W2 m ρ c (Proc.devRef .tc main_arg9) = m ((c : Thread nD τ).loc main_arg9) :=
  (W2_arr m ρ c 8).trans (((dat0 (V1 m ρ) c).arrAt_in 8 rfl _).trans
    ((A_eq0 (V1 m ρ) c 8).trans (W1_of m ρ c main_arg9 (by nw_ops hostOps0))))

/-! ## What region 0 finds -/

theorem e0_arg2 : V1 m ρ c main_arg2 = (m ((c : Thread nD τ).loc main_arg2)) := W1_of m ρ c main_arg2 (by nw_ops hostOps0)
theorem e0_arg7 : V1 m ρ c main_arg7 = (m ((c : Thread nD τ).loc main_arg7)) := W1_of m ρ c main_arg7 (by nw_ops hostOps0)
theorem e0_arg5 : V1 m ρ c main_arg5 = (m ((c : Thread nD τ).loc main_arg5)) := W1_of m ρ c main_arg5 (by nw_ops hostOps0)
theorem e0_arg9 : V1 m ρ c main_arg9 = (m ((c : Thread nD τ).loc main_arg9)) := W1_of m ρ c main_arg9 (by nw_ops hostOps0)
theorem e0_arg15 : V1 m ρ c main_arg15 = (m ((c : Thread nD τ).loc main_arg15)) := W1_of m ρ c main_arg15 (by nw_ops hostOps0)

theorem e0_v6 : V1 m ρ c main_v6 = Spec.gatherRows (N := 20000) (by decide) (m ((c : Thread nD τ).loc main_arg0))
    (Spec.idxCol Gen.bcast_S_S320000 Gen.bcast_S320000_S320000x1_0 20000#32 (m ((c : Thread nD τ).loc main_arg3))) := by
  show StableHlo.after hostOps0 (W0 m ρ c) (Proc.devRef .tc main_v6) = _
  after_results
  exact Spec.gather_eq_gatherRows (by decide) Gen.gather_S20000x128_S320000x1_S320000x128_1_0_n_n_0_1_1128_wf _ _

theorem e0_v13 : V1 m ρ c main_v13 = Spec.gatherRows (N := 20000) (by decide) (m ((c : Thread nD τ).loc main_arg1))
    (Spec.idxCol Gen.bcast_S_S320000 Gen.bcast_S320000_S320000x1_0 20000#32 (m ((c : Thread nD τ).loc main_arg3))) := by
  show StableHlo.after hostOps0 (W0 m ρ c) (Proc.devRef .tc main_v13) = _
  after_results
  exact Spec.gather_eq_gatherRows (by decide) Gen.gather_S20000x3_S320000x1_S320000x3_1_0_n_n_0_1_13_wf _ _

theorem e0_v20 : V1 m ρ c main_v20 = Spec.gatherRows (N := 20000) (by decide) (m ((c : Thread nD τ).loc main_arg1))
    (Spec.idxCol Gen.bcast_S_S320000 Gen.bcast_S320000_S320000x1_0 20000#32 (m ((c : Thread nD τ).loc main_arg4))) := by
  show StableHlo.after hostOps0 (W0 m ρ c) (Proc.devRef .tc main_v20) = _
  after_results
  exact Spec.gather_eq_gatherRows (by decide) Gen.gather_S20000x3_S320000x1_S320000x3_1_0_n_n_0_1_13_wf _ _

theorem e0_v21 : V1 m ρ c main_v21 = Spec.rowOf (m ((c : Thread nD τ).loc main_arg8)) := by
  show StableHlo.after hostOps0 (W0 m ρ c) (Proc.devRef .tc main_v21) = _
  after_results
  exact shapeCast_row_eq _ _

theorem e0_v22 : V1 m ρ c main_v22 = Spec.rowOf (m ((c : Thread nD τ).loc main_arg6)) := by
  show StableHlo.after hostOps0 (W0 m ρ c) (Proc.devRef .tc main_v22) = _
  after_results
  exact shapeCast_row_eq _ _

theorem e0_v23 : V1 m ρ c main_v23 = Spec.rowOf (m ((c : Thread nD τ).loc main_arg10)) := by
  show StableHlo.after hostOps0 (W0 m ρ c) (Proc.devRef .tc main_v23) = _
  after_results
  exact shapeCast_row_eq _ _

theorem e0_v24 : V1 m ρ c main_v24 = Spec.rowOf (m ((c : Thread nD τ).loc main_arg16)) := by
  show StableHlo.after hostOps0 (W0 m ρ c) (Proc.devRef .tc main_v24) = _
  after_results
  exact shapeCast_row_eq _ _

/-- The edge messages region 0 leaves. -/
theorem msg_eq : (dat0 (V1 m ρ) c).arrAt 12 cfg0.N
    = Spec.msg (N := 20000) (by decide) Gen.bcast_S_S320000 Gen.bcast_S320000_S320000x1_0 20000#32
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Region0.final12 (V1 m ρ) c]
  show Spec.edgeMsg (V1 m ρ c main_v20) (V1 m ρ c main_v13) (V1 m ρ c main_v6) (V1 m ρ c main_arg2) (V1 m ρ c main_arg9)
    (V1 m ρ c main_v23) (V1 m ρ c main_arg5) (V1 m ρ c main_v22) (V1 m ρ c main_arg7) (V1 m ρ c main_v21) = _
  rw [e0_v20, e0_v13, e0_v6, e0_arg2, e0_arg9, e0_v23, e0_arg5, e0_v22, e0_arg7, e0_v21]
  rfl

/-- The edge output region 0 leaves. -/
theorem eout_eq : (dat0 (V1 m ρ) c).arrAt 13 cfg0.N
    = Spec.selfOut (m ((c : Thread nD τ).loc main_arg2)) (m ((c : Thread nD τ).loc main_arg7)) (m ((c : Thread nD τ).loc main_arg8)) (m ((c : Thread nD τ).loc main_arg15)) (m ((c : Thread nD τ).loc main_arg16)) := by
  rw [Region0.final13 (V1 m ρ) c]
  show Spec.residual2 (V1 m ρ c main_arg2) (V1 m ρ c main_arg2) (V1 m ρ c main_arg7) (V1 m ρ c main_v21)
    (V1 m ρ c main_arg15) (V1 m ρ c main_v24) = _
  rw [e0_arg2, e0_arg7, e0_v21, e0_arg15, e0_v24]
  rfl

/-! ## What region 1 finds -/

theorem e1_arg0 : V3 m ρ c main_arg0 = (m ((c : Thread nD τ).loc main_arg0)) :=
  W3_of m ρ c main_arg0 (W2_of m ρ c main_arg0 (by nw_ops hostOps0) (by decide)) (by nw_ops hostOps1)
theorem e1_arg11 : V3 m ρ c main_arg11 = (m ((c : Thread nD τ).loc main_arg11)) :=
  W3_of m ρ c main_arg11 (W2_of m ρ c main_arg11 (by nw_ops hostOps0) (by decide)) (by nw_ops hostOps1)
theorem e1_arg13 : V3 m ρ c main_arg13 = (m ((c : Thread nD τ).loc main_arg13)) :=
  W3_of m ρ c main_arg13 (W2_of m ρ c main_arg13 (by nw_ops hostOps0) (by decide)) (by nw_ops hostOps1)

theorem e1_v29 : V3 m ρ c main_v29 = Spec.rowOf (m ((c : Thread nD τ).loc main_arg12)) := by
  show StableHlo.after hostOps1 (W2 m ρ c) (Proc.devRef .tc main_v29) = _
  after_results
  rw [W2_of m ρ c main_arg12 (by nw_ops hostOps0) (by decide)]
  exact shapeCast_row_eq _ _

theorem e1_v30 : V3 m ρ c main_v30 = Spec.rowOf (m ((c : Thread nD τ).loc main_arg14)) := by
  show StableHlo.after hostOps1 (W2 m ρ c) (Proc.devRef .tc main_v30) = _
  after_results
  rw [W2_of m ρ c main_arg14 (by nw_ops hostOps0) (by decide)]
  exact shapeCast_row_eq _ _

theorem e1_v28 : V3 m ρ c main_v28
    = Spec.aggregate Gen.scatter_S20000x512_S320000x1_S320000x512_1_0_0_1_wf Gen.bcast_S_S20000x512
        Gen.bcast_S320000_S320000x1_0 (m ((c : Thread nD τ).loc main_arg4)) ((dat0 (V1 m ρ) c).arrAt 12 cfg0.N) := by
  show StableHlo.after hostOps1 (W2 m ρ c) (Proc.devRef .tc main_v28) = _
  after_results
  rw [W2_of m ρ c main_arg4 (by nw_ops hostOps0) (by decide), W2_arr m ρ c 12]
  rfl

/-- The node output region 1 leaves. -/
theorem hout_eq : (dat1 (V3 m ρ) c).arrAt 6 cfg1.N
    = Spec.hOut (N := 20000) (by decide) Gen.bcast_S_S320000 Gen.bcast_S320000_S320000x1_0 20000#32
        Gen.scatter_S20000x512_S320000x1_S320000x512_1_0_0_1_wf Gen.bcast_S_S20000x512
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) := by
  rw [Region1.final6 (V3 m ρ) c]
  show Spec.residual2 (V3 m ρ c main_arg0) (V3 m ρ c main_v28) (V3 m ρ c main_arg11) (V3 m ρ c main_v29)
    (V3 m ρ c main_arg13) (V3 m ρ c main_v30) = _
  rw [e1_arg0, e1_v28, e1_arg11, e1_v29, e1_arg13, e1_v30, msg_eq]
  rfl

/-! ## What region 2 finds -/

theorem e2_arg1 : V5 m ρ c main_arg1 = (m ((c : Thread nD τ).loc main_arg1)) :=
  W5_of m ρ c main_arg1 (W4_of m ρ c main_arg1 (W3_of m ρ c main_arg1 (W2_of m ρ c main_arg1 (by nw_ops hostOps0) (by decide))
    (by nw_ops hostOps1)) (by decide)) (by nw_ops hostOps2)
theorem e2_arg17 : V5 m ρ c main_arg17 = (m ((c : Thread nD τ).loc main_arg17)) :=
  W5_of m ρ c main_arg17 (W4_of m ρ c main_arg17 (W3_of m ρ c main_arg17 (W2_of m ρ c main_arg17 (by nw_ops hostOps0) (by decide))
    (by nw_ops hostOps1)) (by decide)) (by nw_ops hostOps2)
theorem e2_arg9 : V5 m ρ c main_arg9 = (m ((c : Thread nD τ).loc main_arg9)) :=
  W5_of m ρ c main_arg9 (W4_of m ρ c main_arg9 (W3_of m ρ c main_arg9 (W2_arg9 m ρ c) (by nw_ops hostOps1)) (by decide))
    (by nw_ops hostOps2)

theorem e2_v32 : V5 m ρ c main_v32 = Spec.rowOf (m ((c : Thread nD τ).loc main_arg10)) := by
  show StableHlo.after hostOps2 (W4 m ρ c) (Proc.devRef .tc main_v32) = _
  after_results
  rw [W4_of m ρ c main_arg10 (W3_of m ρ c main_arg10 (W2_of m ρ c main_arg10 (by nw_ops hostOps0) (by decide))
    (by nw_ops hostOps1)) (by decide)]
  exact shapeCast_row_eq _ _

theorem e2_v33 : V5 m ρ c main_v33 = Spec.rowOf (m ((c : Thread nD τ).loc main_arg18)) := by
  show StableHlo.after hostOps2 (W4 m ρ c) (Proc.devRef .tc main_v33) = _
  after_results
  rw [W4_of m ρ c main_arg18 (W3_of m ρ c main_arg18 (W2_of m ρ c main_arg18 (by nw_ops hostOps0) (by decide))
    (by nw_ops hostOps1)) (by decide)]
  exact shapeCast_row_eq _ _

/-- The coordinate output region 2 leaves. -/
theorem cout_eq : (dat2 (V5 m ρ) c).arrAt 5 cfg2.N
    = Spec.selfOut (m ((c : Thread nD τ).loc main_arg1)) (m ((c : Thread nD τ).loc main_arg9)) (m ((c : Thread nD τ).loc main_arg10)) (m ((c : Thread nD τ).loc main_arg17)) (m ((c : Thread nD τ).loc main_arg18)) := by
  rw [Region2.final (V5 m ρ) c]
  show Spec.residual2 (V5 m ρ c main_arg1) (V5 m ρ c main_arg1) (V5 m ρ c main_arg9) (V5 m ρ c main_v32)
    (V5 m ρ c main_arg17) (V5 m ρ c main_v33) = _
  rw [e2_arg1, e2_arg9, e2_v32, e2_arg17, e2_v33]
  rfl

/-! ## The run -/

/-- Every weakly fair execution of the idealized kernel terminates with the node output, the coordinate output and
    the edge output at their functions of the arguments, the arguments unchanged. -/
theorem run : θ_run defs (onTc (τ := τ) (main (F := Ideal))) ⟨m, fun _ => 0, ρ⟩ (fun r => ∀ c : Dev nD,
      r.2.mem ((c.tc : Thread nD τ).loc main_v31)
        = Spec.hOut (N := 20000) (by decide) Gen.bcast_S_S320000 Gen.bcast_S320000_S320000x1_0 20000#32
            Gen.scatter_S20000x512_S320000x1_S320000x512_1_0_0_1_wf Gen.bcast_S_S20000x512
            (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
            (m ((c : Thread nD τ).loc main_arg11)) (m ((c : Thread nD τ).loc main_arg12)) (m ((c : Thread nD τ).loc main_arg13)) (m ((c : Thread nD τ).loc main_arg14))
      ∧ r.2.mem ((c.tc : Thread nD τ).loc main_v34) = Spec.selfOut (m ((c : Thread nD τ).loc main_arg1)) (m ((c : Thread nD τ).loc main_arg9)) (m ((c : Thread nD τ).loc main_arg10)) (m ((c : Thread nD τ).loc main_arg17)) (m ((c : Thread nD τ).loc main_arg18))
      ∧ r.2.mem ((c.tc : Thread nD τ).loc main_v25_1) = Spec.selfOut (m ((c : Thread nD τ).loc main_arg2)) (m ((c : Thread nD τ).loc main_arg7)) (m ((c : Thread nD τ).loc main_arg8)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c).1.trans (hout_eq m ρ c), (h c).2.1.trans (cout_eq m ρ c), (h c).2.2.1.trans (eout_eq m ρ c), (h c).2.2.2⟩)
    (RunV.run_results m ρ)

end Cert.KernelIdeal.ValueK

end
-- ==== Proof.LibHostDot.lean ====
/-
  The host's matrix product read at an index, and two facts about the extended reals that meet it: the product
  of an [m, k] by a [k, n] matrix (the left operand's axis 1 contracted with the right operand's axis 0), computed
  by the host's dot_general, is at (r, c) the sum over the contracted coordinate of the products of the entries —
  the same sum a zero-accumulated kernel matmul gives.  A quotient by a nonzero real is the product with its
  reciprocal on every extended real, which is how a kernel's folded reciprocal meets a reference's division.
-/
import Idealize.ShloMosaic.Lib.Pipeline.Value
import Idealize.ShloMosaic.Lib.ValueIdx
import Idealize.ShloMosaic.PureOps.Ideal.Laws

noncomputable section

namespace Cert.HostBody

open Idealize.ShloMosaic Idealize.ShloMosaic.ValueIdx

/-- The host's product of an m×k by a k×n matrix, read at `(r, c)`, is the sum over the contracted coordinate of
    the products of the entries.  `w` is the record's well-formedness, which a program states. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The word of the float `10.0` denotes the real number ten. -/
theorem ofBits_ten : Ideal.ofBits .f32 0x41200000#32 = ((10 : ℝ) : EReal) := by
  simp [Ideal.ofBits, Ideal.ieee, -EReal.coe_mul]; norm_num

/-- Dividing by the float ten is multiplying by the rational one tenth, on every extended real. -/
theorem div_ten (x : EReal) : Ideal.div x (Ideal.ofBits .f32 0x41200000#32) = x * ((1 / 10 : ℝ) : EReal) := by
  rw [ofBits_ten]; exact Ideal.div_coe (by norm_num) x

end Cert.HostBody

end
-- ==== Proof.RLayer.lean ====
/-
  One dense layer followed by CELU as the host program spells it on whole arrays: the host's matrix product of an
  [m, k] array with a [k, n] weight array, plus the bias vector laid out as a row [1, n] and broadcast down the rows;
  then CELU as max(x, 0) + 1 * expm1(min(x, 0) / 1) against broadcast scalar constants.  Read at (r, c) this is the
  function `Spec.layer` with the bias vector as its row, because the two spellings of CELU agree on every extended
  real.
-/
import proofs.«154357_j34986803593905_2_alg».proof.Proof.Spec
import proofs.«154357_j34986803593905_2_alg».proof.Proof.LibHostDot

noncomputable section

namespace Cert.HostBody

open Idealize.ShloMosaic Idealize.ShloMosaic.ValueIdx

/-- A vector laid out as a row: entry (z, c) of the broadcast of a length-n vector into [1, n] along axis 1 is entry c. -/
theorem bcast_vec_row_eq {n : ℕ} (b : (⟨1, ![n]⟩ : Shape).Idx → EReal)
    (h : (⟨1, ![n]⟩ : Shape).BroadcastsInDim ⟨2, ![1, n]⟩ ![1]) :
    broadcastInDim ⟨2, ![1, n]⟩ ![1] h b = Spec.rowOf b := by
  funext j
  obtain ⟨z, c, rfl⟩ : ∃ (z : Fin 1) (c : Fin n), j = ix2 z c := ⟨j 0, j 1, eq_ix2 j⟩
  refine broadcastInDim_apply ![1] h b (ix2 z c) (ix1 c) (fun a => ?_)
  match a with
  | ⟨0, _⟩ =>
    show c.val = if n = 1 then 0 else c.val
    have := c.isLt
    split <;> omega

/-- A row broadcast down the rows: entry (r, c) is the row's entry (0, c). -/
theorem bcast_row_rows_apply {m n : ℕ} (x : (⟨2, ![1, n]⟩ : Shape).Idx → EReal)
    (h : (⟨2, ![1, n]⟩ : Shape).BroadcastsInDim ⟨2, ![m, n]⟩ ![0, 1]) (r : Fin m) (c : Fin n) :
    broadcastInDim ⟨2, ![m, n]⟩ ![0, 1] h x (ix2 r c) = x (ix2 (0 : Fin 1) c) := by
  refine broadcastInDim_apply ![0, 1] h x (ix2 r c) (ix2 (0 : Fin 1) c) (fun a => ?_)
  match a with
  | ⟨0, _⟩ => rfl
  | ⟨1, _⟩ =>
    show c.val = if n = 1 then 0 else c.val
    have := c.isLt
    split <;> omega

/-- The host's CELU of an array, against broadcast scalar constants 0 and 1. -/
def celuHost {s : Shape} (hb : (⟨0, ![]⟩ : Shape).BroadcastsInDim s ![]) (v : FVec Ideal s .f32) : FVec Ideal s .f32 :=
  addf (maximumf v (broadcastInDim s ![] hb (constant (F := Ideal) ⟨0, ![]⟩ .f32 0x00000000#32)))
    (mulf (broadcastInDim s ![] hb (constant (F := Ideal) ⟨0, ![]⟩ .f32 0x3F800000#32))
      (Host.expm1 (Host.divf (minimumf v (broadcastInDim s ![] hb (constant (F := Ideal) ⟨0, ![]⟩ .f32 0x00000000#32)))
        (broadcastInDim s ![] hb (constant (F := Ideal) ⟨0, ![]⟩ .f32 0x3F800000#32)))))

theorem celuHost_apply {s : Shape} (hb : (⟨0, ![]⟩ : Shape).BroadcastsInDim s ![]) (v : FVec Ideal s .f32) (i : s.Idx) :
    celuHost hb v i = Spec.celuSel (v i) := by
  rw [← Spec.celuMax_eq_celuSel]
  show max (v i) (Ideal.ofBits .f32 0x00000000#32) + Ideal.ofBits .f32 0x3F800000#32
      * (Ideal.exp (Ideal.div (min (v i) (Ideal.ofBits .f32 0x00000000#32)) (Ideal.ofBits .f32 0x3F800000#32)) - 1) = _
  rw [Ideal.ofBits_zero_f32, Spec.ofBits_one]
  rfl

/-- The host's dense layer with CELU on whole arrays. -/
def layerHost {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (W : FVec Ideal ⟨2, ![k, n]⟩ φ₂) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (hs : (⟨0, ![]⟩ : Shape).BroadcastsInDim ⟨2, ![m, n]⟩ ![]) : FVec Ideal ⟨2, ![m, n]⟩ .f32 :=
  celuHost hs (addf (Host.dotGeneral (⟨[1], [0], [0], [1], [], [], w⟩ : DotDims _ _ _) none A W)
    (broadcastInDim ⟨2, ![m, n]⟩ ![0, 1] h2 (broadcastInDim ⟨2, ![1, n]⟩ ![1] h1 b)))

theorem layerHost_eq {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (W : FVec Ideal ⟨2, ![k, n]⟩ φ₂) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (hs : (⟨0, ![]⟩ : Shape).BroadcastsInDim ⟨2, ![m, n]⟩ ![]) :
    layerHost w A W b h1 h2 hs = Spec.layerM A W (Spec.rowOf b) := by
  funext j
  obtain ⟨r, c, rfl⟩ : ∃ (r : Fin m) (c : Fin n), j = ix2 r c := ⟨j 0, j 1, eq_ix2 j⟩
  unfold layerHost
  rw [celuHost_apply, addf_apply, dotGeneral_plain_apply, bcast_row_rows_apply, bcast_vec_row_eq]
  rfl

end Cert.HostBody

end
-- ==== Proof.RValue.lean ====
/-
  The idealized reference's three results as functions of the argument arrays.

  The reference expands all node rows, all coordinate rows and all edge rows by a dense layer with CELU, gathers the
  expanded node and coordinate rows by the source and destination columns, forms the edge messages, aggregates them
  by the destination vector and applies the residual blocks.  Because a dense layer acts row by row, gathering the
  expanded rows is expanding the gathered rows, so the messages are the edge message of the gathered narrow rows.
  Each stage of the run is one host operation of the previous stages; a dense layer with the host's CELU is the
  layer of the common specification.
-/
import proofs.«154357_j34986803593905_2_alg».proof.Proof.Gen.ReferenceIdeal.Read
import proofs.«154357_j34986803593905_2_alg».proof.Proof.RLayer
import proofs.«154357_j34986803593905_2_alg».proof.Proof.EdgeSpec

set_option maxRecDepth 16384

noncomputable section

namespace Cert.ReferenceIdeal.ValueR

open Cert.ReferenceIdeal Cert.ReferenceIdeal.Gen Cert.ReferenceIdeal.Read
open Idealize.ShloMosaic Idealize.ShloMosaic.TcCoe Idealize.SL.Sem Idealize.ShloMosaic.ValueIdx
open Cert.HostBody

/-! ## The three expansions -/

/-- The expanded node rows. -/
theorem nodes_eq (x0 : S20000x128.Idx → EReal) (x5 : S128x512.Idx → EReal) (x6 : S512.Idx → EReal) :
    val_main_v4 (F := Ideal) x0 x5 x6 = Spec.layerM x0 x5 (Spec.rowOf x6) := by
  have h : val_main_v4 (F := Ideal) x0 x5 x6
      = layerHost (φ₁ := .f32) (φ₂ := .f32) Gen.dot_S20000x128_S128x512_S20000x512_1_0_0_1_n_n_wf x0 x5 x6
          Gen.bcast_S512_S1x512_1 Gen.bcast_S1x512_S20000x512_0_1 Gen.bcast_S_S20000x512 := rfl
  rw [h, layerHost_eq]

/-- The expanded edge rows. -/
theorem edges_eq (x2 : S320000x32.Idx → EReal) (x7 : S32x512.Idx → EReal) (x8 : S512.Idx → EReal) :
    val_main_v9 (F := Ideal) x2 x7 x8 = Spec.layerM x2 x7 (Spec.rowOf x8) := by
  have h : val_main_v9 (F := Ideal) x2 x7 x8
      = layerHost (φ₁ := .f32) (φ₂ := .f32) Gen.dot_S320000x32_S32x512_S320000x512_1_0_0_1_n_n_wf x2 x7 x8
          Gen.bcast_S512_S1x512_1 Gen.bcast_S1x512_S320000x512_0_1 Gen.bcast_S_S320000x512 := rfl
  rw [h, layerHost_eq]

/-- The expanded coordinate rows. -/
theorem coords_eq (x1 : S20000x3.Idx → EReal) (x9 : S3x512.Idx → EReal) (x10 : S512.Idx → EReal) :
    val_main_v14 (F := Ideal) x1 x9 x10 = Spec.layerM x1 x9 (Spec.rowOf x10) := by
  have h : val_main_v14 (F := Ideal) x1 x9 x10
      = layerHost (φ₁ := .f32) (φ₂ := .f32) Gen.dot_S20000x3_S3x512_S20000x512_1_0_0_1_n_n_wf x1 x9 x10
          Gen.bcast_S512_S1x512_1 Gen.bcast_S1x512_S20000x512_0_1 Gen.bcast_S_S20000x512 := rfl
  rw [h, layerHost_eq]

/-! ## The columns of row numbers -/

theorem col20 (x4 : IVec S320000 32) :
    val_main_v20 (F := Ideal) x4 = Spec.idxCol Gen.bcast_S_S320000 Gen.bcast_S320000_S320000x1_0 20000#32 x4 := rfl
theorem col27 (x3 : IVec S320000 32) :
    val_main_v27 (F := Ideal) x3 = Spec.idxCol Gen.bcast_S_S320000 Gen.bcast_S320000_S320000x1_0 20000#32 x3 := rfl
theorem col36 (x3 : IVec S320000 32) :
    val_main_v36 (F := Ideal) x3 = Spec.idxCol Gen.bcast_S_S320000 Gen.bcast_S320000_S320000x1_0 20000#32 x3 := rfl

/-! ## The messages, the aggregate and the node output -/

/-- The edge messages are the edge message of the gathered narrow rows. -/
theorem msg_eq (x0 : S20000x128.Idx → EReal) (x1 : S20000x3.Idx → EReal) (x2 : S320000x32.Idx → EReal)
    (x3 x4 : IVec S320000 32) (x5 : S128x512.Idx → EReal) (x6 : S512.Idx → EReal) (x7 : S32x512.Idx → EReal)
    (x8 : S512.Idx → EReal) (x9 : S3x512.Idx → EReal) (x10 : S512.Idx → EReal) :
    val_main_v39 (F := Ideal) x0 x1 x2 x3 x4 x5 x6 x7 x8 x9 x10
      = Spec.msg (N := 20000) (by decide) Gen.bcast_S_S320000 Gen.bcast_S320000_S320000x1_0 20000#32
          x0 x1 x2 x3 x4 x5 x6 x7 x8 x9 x10 := by
  have h : val_main_v39 (F := Ideal) x0 x1 x2 x3 x4 x5 x6 x7 x8 x9 x10
      = mulf (F := Ideal) (φ := .f32) (Host.absf (F := Ideal) (φ := .f32) (subf (F := Ideal) (φ := .f32)
          (Host.gather gather_S20000x512_S320000x1_S320000x512_1_0_n_n_0_1_1512 (val_main_v14 (F := Ideal) x1 x9 x10)
            (val_main_v20 (F := Ideal) x4))
          (Host.gather gather_S20000x512_S320000x1_S320000x512_1_0_n_n_0_1_1512 (val_main_v14 (F := Ideal) x1 x9 x10)
            (val_main_v27 (F := Ideal) x3))))
        (mulf (F := Ideal) (φ := .f32) (Host.gather gather_S20000x512_S320000x1_S320000x512_1_0_n_n_0_1_1512 (val_main_v4 (F := Ideal) x0 x5 x6)
            (val_main_v36 (F := Ideal) x3))
          (val_main_v9 (F := Ideal) x2 x7 x8)) := rfl
  rw [h, nodes_eq, edges_eq, coords_eq, col20, col27, col36]
  have g := fun (x : S20000x512.Idx → EReal) (idx : IVec S320000x1 32) =>
    Spec.gather_eq_gatherRows (N := 20000) (E := 320000) (C := 512) (by decide)
      Gen.gather_S20000x512_S320000x1_S320000x512_1_0_n_n_0_1_1512_wf x idx
  rw [show Host.gather gather_S20000x512_S320000x1_S320000x512_1_0_n_n_0_1_1512
        (Spec.layerM x1 x9 (Spec.rowOf x10)) (Spec.idxCol Gen.bcast_S_S320000 Gen.bcast_S320000_S320000x1_0 20000#32 x4)
        = _ from g _ _,
    show Host.gather gather_S20000x512_S320000x1_S320000x512_1_0_n_n_0_1_1512
        (Spec.layerM x1 x9 (Spec.rowOf x10)) (Spec.idxCol Gen.bcast_S_S320000 Gen.bcast_S320000_S320000x1_0 20000#32 x3)
        = _ from g _ _,
    show Host.gather gather_S20000x512_S320000x1_S320000x512_1_0_n_n_0_1_1512
        (Spec.layerM x0 x5 (Spec.rowOf x6)) (Spec.idxCol Gen.bcast_S_S320000 Gen.bcast_S320000_S320000x1_0 20000#32 x3)
        = _ from g _ _,
    Spec.layerM_gatherRows, Spec.layerM_gatherRows, Spec.layerM_gatherRows]
  rfl

/-- The aggregate of the messages. -/
theorem agg_eq (x0 : S20000x128.Idx → EReal) (x1 : S20000x3.Idx → EReal) (x2 : S320000x32.Idx → EReal)
    (x3 x4 : IVec S320000 32) (x5 : S128x512.Idx → EReal) (x6 : S512.Idx → EReal) (x7 : S32x512.Idx → EReal)
    (x8 : S512.Idx → EReal) (x9 : S3x512.Idx → EReal) (x10 : S512.Idx → EReal) :
    val_main_v42 (F := Ideal) x0 x1 x2 x3 x4 x5 x6 x7 x8 x9 x10
      = Spec.aggregate Gen.scatter_S20000x512_S320000x1_S320000x512_1_0_0_1_wf Gen.bcast_S_S20000x512
          Gen.bcast_S320000_S320000x1_0 x4 (val_main_v39 (F := Ideal) x0 x1 x2 x3 x4 x5 x6 x7 x8 x9 x10) := rfl

/-- The first layer of the node block. -/
theorem hid1_eq (x0 : S20000x128.Idx → EReal) (x1 : S20000x3.Idx → EReal) (x2 : S320000x32.Idx → EReal)
    (x3 x4 : IVec S320000 32) (x5 : S128x512.Idx → EReal) (x6 : S512.Idx → EReal) (x7 : S32x512.Idx → EReal)
    (x8 : S512.Idx → EReal) (x9 : S3x512.Idx → EReal) (x10 : S512.Idx → EReal) (x11 : S512x512.Idx → EReal) (x12 : S512.Idx → EReal) :
    val_main_v47 (F := Ideal) x0 x1 x2 x3 x4 x5 x6 x7 x8 x9 x10 x11 x12
      = Spec.layerM (val_main_v42 (F := Ideal) x0 x1 x2 x3 x4 x5 x6 x7 x8 x9 x10) x11 (Spec.rowOf x12) := by
  have h : val_main_v47 (F := Ideal) x0 x1 x2 x3 x4 x5 x6 x7 x8 x9 x10 x11 x12
      = layerHost (φ₁ := .f32) (φ₂ := .f32) Gen.dot_S20000x512_S512x512_S20000x512_1_0_0_1_n_n_wf
          (val_main_v42 (F := Ideal) x0 x1 x2 x3 x4 x5 x6 x7 x8 x9 x10) x11 x12
          Gen.bcast_S512_S1x512_1 Gen.bcast_S1x512_S20000x512_0_1 Gen.bcast_S_S20000x512 := rfl
  rw [h, layerHost_eq]

/-- The second layer of the node block. -/
theorem hid2_eq (x0 : S20000x128.Idx → EReal) (x1 : S20000x3.Idx → EReal) (x2 : S320000x32.Idx → EReal)
    (x3 x4 : IVec S320000 32) (x5 : S128x512.Idx → EReal) (x6 : S512.Idx → EReal) (x7 : S32x512.Idx → EReal)
    (x8 : S512.Idx → EReal) (x9 : S3x512.Idx → EReal) (x10 : S512.Idx → EReal) (x11 : S512x512.Idx → EReal) (x12 : S512.Idx → EReal)
    (x13 : S512x128.Idx → EReal) (x14 : S128.Idx → EReal) :
    val_main_v52 (F := Ideal) x0 x1 x2 x3 x4 x5 x6 x7 x8 x9 x10 x11 x12 x13 x14
      = Spec.layerM (val_main_v47 (F := Ideal) x0 x1 x2 x3 x4 x5 x6 x7 x8 x9 x10 x11 x12) x13 (Spec.rowOf x14) := by
  have h : val_main_v52 (F := Ideal) x0 x1 x2 x3 x4 x5 x6 x7 x8 x9 x10 x11 x12 x13 x14
      = layerHost (φ₁ := .f32) (φ₂ := .f32) Gen.dot_S20000x512_S512x128_S20000x128_1_0_0_1_n_n_wf
          (val_main_v47 (F := Ideal) x0 x1 x2 x3 x4 x5 x6 x7 x8 x9 x10 x11 x12) x13 x14
          Gen.bcast_S128_S1x128_1 Gen.bcast_S1x128_S20000x128_0_1 Gen.bcast_S_S20000x128 := rfl
  rw [h, layerHost_eq]

/-- The node output. -/
theorem hout_eq (x0 : S20000x128.Idx → EReal) (x1 : S20000x3.Idx → EReal) (x2 : S320000x32.Idx → EReal)
    (x3 x4 : IVec S320000 32) (x5 : S128x512.Idx → EReal) (x6 : S512.Idx → EReal) (x7 : S32x512.Idx → EReal)
    (x8 : S512.Idx → EReal) (x9 : S3x512.Idx → EReal) (x10 : S512.Idx → EReal) (x11 : S512x512.Idx → EReal) (x12 : S512.Idx → EReal)
    (x13 : S512x128.Idx → EReal) (x14 : S128.Idx → EReal) :
    val_main_v53 (F := Ideal) x0 x1 x2 x3 x4 x5 x6 x7 x8 x9 x10 x11 x12 x13 x14
      = Spec.hOut (N := 20000) (by decide) Gen.bcast_S_S320000 Gen.bcast_S320000_S320000x1_0 20000#32
          Gen.scatter_S20000x512_S320000x1_S320000x512_1_0_0_1_wf Gen.bcast_S_S20000x512 x0 x1 x2 x3 x4 x5 x6 x7 x8 x9 x10 x11 x12 x13 x14 := by
  have h : val_main_v53 (F := Ideal) x0 x1 x2 x3 x4 x5 x6 x7 x8 x9 x10 x11 x12 x13 x14 = addf (F := Ideal) (φ := .f32) x0 (val_main_v52 (F := Ideal) x0 x1 x2 x3 x4 x5 x6 x7 x8 x9 x10 x11 x12 x13 x14) := rfl
  rw [h, hid2_eq, hid1_eq, agg_eq, msg_eq]
  rfl

/-! ## The edge output and the coordinate output -/

theorem eout_eq (x2 : S320000x32.Idx → EReal) (x7 : S32x512.Idx → EReal) (x8 : S512.Idx → EReal)
    (x15 : S512x32.Idx → EReal) (x16 : S32.Idx → EReal) :
    val_main_v59 (F := Ideal) x2 x7 x8 x15 x16 = Spec.selfOut x2 x7 x8 x15 x16 := by
  have h : val_main_v59 (F := Ideal) x2 x7 x8 x15 x16
      = addf x2 (layerHost (φ₁ := .f32) (φ₂ := .f32) Gen.dot_S320000x512_S512x32_S320000x32_1_0_0_1_n_n_wf
          (val_main_v9 (F := Ideal) x2 x7 x8) x15 x16
          Gen.bcast_S32_S1x32_1 Gen.bcast_S1x32_S320000x32_0_1 Gen.bcast_S_S320000x32) := rfl
  rw [h, layerHost_eq, edges_eq]
  rfl

theorem cout_eq (x1 : S20000x3.Idx → EReal) (x9 : S3x512.Idx → EReal) (x10 : S512.Idx → EReal)
    (x17 : S512x3.Idx → EReal) (x18 : S3.Idx → EReal) :
    val_main_v65 (F := Ideal) x1 x9 x10 x17 x18 = Spec.selfOut x1 x9 x10 x17 x18 := by
  have h : val_main_v65 (F := Ideal) x1 x9 x10 x17 x18
      = addf x1 (layerHost (φ₁ := .f32) (φ₂ := .f32) Gen.dot_S20000x512_S512x3_S20000x3_1_0_0_1_n_n_wf
          (val_main_v14 (F := Ideal) x1 x9 x10) x17 x18
          Gen.bcast_S3_S1x3_1 Gen.bcast_S1x3_S20000x3_0_1 Gen.bcast_S_S20000x3) := rfl
  rw [h, layerHost_eq, coords_eq]
  rfl

end Cert.ReferenceIdeal.ValueR

end
-- ==== Proof.lean ====
/-
  A message-passing layer on a graph with 20000 nodes and 320000 edges, against its jnp reference, at the ideal
  instance (floats are extended reals, every operation exact, a change of float format the identity).

  Both programs compute, with CELU(x) = x for x > 0 and exp(x) - 1 otherwise:
    h = CELU(hf · Wn + bn),  e = CELU(ef · We + be),  c = CELU(cf · Wc + bc),
    x = |c[dst] - c[src]| · (h[src] · e),   k = the sum of the rows of x landing on each destination node,
    h_out = hf + CELU(CELU(k · Wn1 + bn1) · Wn2 + bn2),  e_out = ef + CELU(e · Weo + beo),
    c_out = cf + CELU(c · Wco + bco).
  The reference expands every node and coordinate row and then gathers the expanded rows; the kernel gathers the
  narrow rows and expands them inside a row-blocked region.  A dense layer acts on each row separately, so the two
  orders give the same rows, whatever row a start index selects.  The reference spells CELU as
  max(x, 0) + 1 · expm1(min(x, 0) / 1), the kernel as a selection on the sign; the two agree on every extended real.
  The kernel's matrix products are accumulated into zero and its blocks tile the arrays, so each of its three
  regions leaves the same function of whole arrays that the reference's host operations compute.  Each of these
  facts holds at the two infinities as well, so the results agree for all extended-real inputs, finite or not.
  The aggregation is the same host scatter in both programs.
-/
import proofs.«154357_j34986803593905_2_alg».proof.Defs
import proofs.«154357_j34986803593905_2_alg».proof.Proof.Gen.Kernel
import proofs.«154357_j34986803593905_2_alg».proof.Proof.Gen.Kernel.Skeleton
import proofs.«154357_j34986803593905_2_alg».proof.Proof.Gen.Kernel.Launch
import proofs.«154357_j34986803593905_2_alg».proof.Proof.Gen.Kernel.Points
import proofs.«154357_j34986803593905_2_alg».proof.Proof.Gen.Kernel.Frame
import proofs.«154357_j34986803593905_2_alg».proof.Proof.Gen.KernelIdeal
import proofs.«154357_j34986803593905_2_alg».proof.Proof.Gen.KernelIdeal.Skeleton
import proofs.«154357_j34986803593905_2_alg».proof.Proof.Gen.KernelIdeal.Launch
import proofs.«154357_j34986803593905_2_alg».proof.Proof.Gen.KernelIdeal.Points
import proofs.«154357_j34986803593905_2_alg».proof.Proof.Gen.KernelIdeal.Frame
import proofs.«154357_j34986803593905_2_alg».proof.Proof.Gen.ReferenceIdeal
import proofs.«154357_j34986803593905_2_alg».proof.Proof.Gen.Pre_finite_inputs
import proofs.«154357_j34986803593905_2_alg».proof.Proof.Gen.ReferenceIdeal.Run
import proofs.«154357_j34986803593905_2_alg».proof.Proof.Gen.ReferenceIdeal.Read
import proofs.«154357_j34986803593905_2_alg».proof.Proof.KValue
import proofs.«154357_j34986803593905_2_alg».proof.Proof.RValue
import Idealize.ShloMosaic.Adequacy
import Idealize.ShloMosaic.Init

set_option maxRecDepth 16384

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments the two idealized programs end with equal results: each result is the
    same function of the arguments in both. -/
theorem algebraic : Cert.algebraic_KernelIdeal_ReferenceIdeal := by
  intro m ρ m' ρ' _ hagree
  refine ⟨_, _, _, Cert.KernelIdeal.ValueK.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18⟩ := hagree c
  refine ⟨(h c).1.trans ?_, (h c).2.1.trans ?_, (h c).2.2.1.trans ?_, (h c).2.2.2⟩
  · rw [Cert.ReferenceIdeal.Read.val_main_v53_eq, Cert.ReferenceIdeal.ValueR.hout_eq,
      a0, a1, a2, a3, a4, a5, a6, a7, a8, a9, a10, a11, a12, a13, a14]
  · rw [Cert.ReferenceIdeal.Read.val_main_v65_eq, Cert.ReferenceIdeal.ValueR.cout_eq, a1, a9, a10, a17, a18]
  · rw [Cert.ReferenceIdeal.Read.val_main_v59_eq, Cert.ReferenceIdeal.ValueR.eout_eq, a2, a7, a8, a15, a16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
